-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v177) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg9 : FVec F S512x256 .f32) (main_arg10 : FVec F S256 .f32) (main_v33 : IVec S_ 1) : IVec S_ 1 :=
  let main_v34 : FVec F S512x256 .f32 := Host.absf main_arg9
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S256 .f32) (main_arg7 : FVec F S256x512 .f32) (main_arg8 : FVec F S512 .f32) (main_arg9 : FVec F S512x256 .f32) (main_arg10 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg7
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_v33

def fn {F : FTy → Type} [FloatOps F] (main_arg0 : FVec F S50000x512 .f32) (main_arg1 : IVec S2x400000 32) (main_arg2 : IVec S2x400000 32) (main_arg3 : FVec F S512x512 .f32) (main_arg4 : FVec F S512 .f32) (main_arg5 : FVec F S512x256 .f32) (main_arg6 : FVec F S256 .f32) (main_arg7 : FVec F S256x512 .f32) (main_arg8 : FVec F S512 .f32) (main_arg9 : FVec F S512x256 .f32) (main_arg10 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_arg9 main_arg10 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S1x400000 : Shape := ⟨2, ![1, 400000]⟩
abbrev S400000 : Shape := ⟨1, ![400000]⟩
abbrev S1000x512 : Shape := ⟨2, ![1000, 512]⟩
abbrev S_ : Shape := ⟨0, ![]⟩
abbrev S50000 : Shape := ⟨1, ![50000]⟩
abbrev S400000x1 : Shape := ⟨2, ![400000, 1]⟩
abbrev S400000x512 : Shape := ⟨2, ![400000, 512]⟩
abbrev S50000x1 : Shape := ⟨2, ![50000, 1]⟩
abbrev S1x512 : Shape := ⟨2, ![1, 512]⟩
abbrev S50000x256 : Shape := ⟨2, ![50000, 256]⟩
abbrev S1000x256 : Shape := ⟨2, ![1000, 256]⟩
abbrev S400000x256 : Shape := ⟨2, ![400000, 256]⟩
abbrev S1x256 : Shape := ⟨2, ![1, 256]⟩

abbrev nBuf : Space → Nat
  | .hbm => 229
  | .vmem => 32
  | .smem => 0
  | _ => 0

abbrev hbmTy0_0 (i : Nat) : BufTy := match i % 128 with
  | 0 => ⟨S50000x512, .f32⟩
  | 1 => ⟨S2x400000, .i32⟩
  | 2 => ⟨S2x400000, .i32⟩
  | 3 => ⟨S512x512, .f32⟩
  | 4 => ⟨S512, .f32⟩
  | 5 => ⟨S512x256, .f32⟩
  | 6 => ⟨S256, .f32⟩
  | 7 => ⟨S256x512, .f32⟩
  | 8 => ⟨S512, .f32⟩
  | 9 => ⟨S512x256, .f32⟩
  | 10 => ⟨S256, .f32⟩
  | 11 => ⟨S1x400000, .i32⟩
  | 12 => ⟨S400000, .i32⟩
  | 13 => ⟨S1x400000, .i32⟩
  | 14 => ⟨S400000, .i32⟩
  | 15 => ⟨S1x400000, .i32⟩
  | 16 => ⟨S400000, .i32⟩
  | 17 => ⟨S1x400000, .i32⟩
  | 18 => ⟨S400000, .i32⟩
  | 19 => ⟨S50000x512, .f32⟩
  | 20 => ⟨S_, .f32⟩
  | 21 => ⟨S400000, .f32⟩
  | 22 => ⟨S_, .f32⟩
  | 23 => ⟨S50000, .f32⟩
  | 24 => ⟨S400000x1, .i32⟩
  | 25 => ⟨S50000, .f32⟩
  | 26 => ⟨S_, .f32⟩
  | 27 => ⟨S50000, .f32⟩
  | 28 => ⟨S50000, .f32⟩
  | 29 => ⟨S50000, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000, .f32⟩
  | 48 => ⟨S400000, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x512, .f32⟩
  | 58 => ⟨S400000x1, .f32⟩
  | 59 => ⟨S400000x512, .f32⟩
  | 60 => ⟨S400000x512, .f32⟩
  | 61 => ⟨S_, .f32⟩
  | 62 => ⟨S50000x512, .f32⟩
  | 63 => ⟨S400000x1, .i32⟩
  | 64 => ⟨S50000x512, .f32⟩
  | 65 => ⟨S50000, .f32⟩
  | 66 => ⟨S50000x1, .f32⟩
  | 67 => ⟨S50000x512, .f32⟩
  | 68 => ⟨S50000x512, .f32⟩
  | 69 => ⟨S50000x512, .f32⟩
  | 70 => ⟨S1x512, .f32⟩
  | 71 => ⟨S50000x256, .f32⟩
  | 72 => ⟨S_, .f32⟩
  | 73 => ⟨S400000, .f32⟩
  | 74 => ⟨S_, .f32⟩
  | 75 => ⟨S50000, .f32⟩
  | 76 => ⟨S400000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S400000, .f32⟩
  | 100 => ⟨S400000, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x256, .f32⟩
  | 110 => ⟨S400000x1, .f32⟩
  | 111 => ⟨S400000x256, .f32⟩
  | 112 => ⟨S400000x256, .f32⟩
  | 113 => ⟨S_, .f32⟩
  | 114 => ⟨S50000x256, .f32⟩
  | 115 => ⟨S400000x1, .i32⟩
  | 116 => ⟨S50000x256, .f32⟩
  | 117 => ⟨S50000, .f32⟩
  | 118 => ⟨S50000x1, .f32⟩
  | 119 => ⟨S50000x256, .f32⟩
  | 120 => ⟨S50000x256, .f32⟩
  | 121 => ⟨S50000x256, .f32⟩
  | 122 => ⟨S1x256, .f32⟩
  | 123 => ⟨S50000x256, .f32⟩
  | 124 => ⟨S50000x512, .f32⟩
  | 125 => ⟨S_, .f32⟩
  | 126 => ⟨S400000, .f32⟩
  | 127 => ⟨S_, .f32⟩
  | _ => ⟨S50000x512, .f32⟩

abbrev hbmTy0_1 (i : Nat) : BufTy := match i % 128 with
  | 0 => ⟨S50000, .f32⟩
  | 1 => ⟨S400000x1, .i32⟩
  | 2 => ⟨S50000, .f32⟩
  | 3 => ⟨S_, .f32⟩
  | 4 => ⟨S50000, .f32⟩
  | 5 => ⟨S50000, .f32⟩
  | 6 => ⟨S50000, .f32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S400000, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000, .f32⟩
  | 25 => ⟨S400000, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x512, .f32⟩
  | 35 => ⟨S400000x1, .f32⟩
  | 36 => ⟨S400000x512, .f32⟩
  | 37 => ⟨S400000x512, .f32⟩
  | 38 => ⟨S_, .f32⟩
  | 39 => ⟨S50000x512, .f32⟩
  | 40 => ⟨S400000x1, .i32⟩
  | 41 => ⟨S50000x512, .f32⟩
  | 42 => ⟨S50000, .f32⟩
  | 43 => ⟨S50000x1, .f32⟩
  | 44 => ⟨S50000x512, .f32⟩
  | 45 => ⟨S50000x512, .f32⟩
  | 46 => ⟨S50000x512, .f32⟩
  | 47 => ⟨S1x512, .f32⟩
  | 48 => ⟨S50000x256, .f32⟩
  | 49 => ⟨S_, .f32⟩
  | 50 => ⟨S400000, .f32⟩
  | 51 => ⟨S_, .f32⟩
  | 52 => ⟨S50000, .f32⟩
  | 53 => ⟨S400000x1, .i32⟩
  | 54 => ⟨S50000, .f32⟩
  | 55 => ⟨S_, .f32⟩
  | 56 => ⟨S50000, .f32⟩
  | 57 => ⟨S50000, .f32⟩
  | 58 => ⟨S50000, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000, .f32⟩
  | 68 => ⟨S_, .i32⟩
  | 69 => ⟨S400000, .i32⟩
  | 70 => ⟨S400000, .i1⟩
  | 71 => ⟨S_, .i32⟩
  | 72 => ⟨S400000, .i32⟩
  | 73 => ⟨S400000, .i32⟩
  | 74 => ⟨S400000, .i32⟩
  | 75 => ⟨S400000x1, .i32⟩
  | 76 => ⟨S400000, .f32⟩
  | 77 => ⟨S400000, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x256, .f32⟩
  | 87 => ⟨S400000x1, .f32⟩
  | 88 => ⟨S400000x256, .f32⟩
  | 89 => ⟨S400000x256, .f32⟩
  | 90 => ⟨S_, .f32⟩
  | 91 => ⟨S50000x256, .f32⟩
  | 92 => ⟨S400000x1, .i32⟩
  | 93 => ⟨S50000x256, .f32⟩
  | 94 => ⟨S50000, .f32⟩
  | 95 => ⟨S50000x1, .f32⟩
  | 96 => ⟨S50000x256, .f32⟩
  | 97 => ⟨S50000x256, .f32⟩
  | 98 => ⟨S50000x256, .f32⟩
  | 99 => ⟨S1x256, .f32⟩
  | 100 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1x512, .f32⟩
  | .local _ .vmem, ⟨8, _⟩ => ⟨S512x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S256x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1x512, .f32⟩
  | .local _ .vmem, ⟨24, _⟩ => ⟨S512x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1x256, .f32⟩
  | .local _ .vmem, ⟨30, _⟩ => ⟨S1000x256, .f32⟩
  | .local _ .vmem, ⟨31, _⟩ => ⟨S1000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_cst_19 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_21 : Ref sig .tc := ⟨.hbm, 135, rfl⟩
abbrev main_v101 : Ref sig .tc := ⟨.hbm, 136, rfl⟩
abbrev main_v102 : Ref sig .tc := ⟨.hbm, 137, rfl⟩
abbrev main_c_22 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_23 : Ref sig .tc := ⟨.hbm, 144, rfl⟩
abbrev main_v108 : Ref sig .tc := ⟨.hbm, 145, rfl⟩
abbrev main_v109 : Ref sig .tc := ⟨.hbm, 146, rfl⟩
abbrev main_c_24 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c_25 : Ref sig .tc := ⟨.hbm, 154, rfl⟩
abbrev main_v116 : Ref sig .tc := ⟨.hbm, 155, rfl⟩
abbrev main_v117 : Ref sig .tc := ⟨.hbm, 156, rfl⟩
abbrev main_c_26 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_27 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_28 : Ref sig .tc := ⟨.hbm, 177, rfl⟩
abbrev main_v136 : Ref sig .tc := ⟨.hbm, 178, rfl⟩
abbrev main_cst_29 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_30 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_c_31 : Ref sig .tc := ⟨.hbm, 187, rfl⟩
abbrev main_v143 : Ref sig .tc := ⟨.hbm, 188, rfl⟩
abbrev main_v144 : Ref sig .tc := ⟨.hbm, 189, rfl⟩
abbrev main_c_32 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_c_33 : Ref sig .tc := ⟨.hbm, 196, rfl⟩
abbrev main_v150 : Ref sig .tc := ⟨.hbm, 197, rfl⟩
abbrev main_v151 : Ref sig .tc := ⟨.hbm, 198, rfl⟩
abbrev main_c_34 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_c_35 : Ref sig .tc := ⟨.hbm, 206, rfl⟩
abbrev main_v158 : Ref sig .tc := ⟨.hbm, 207, rfl⟩
abbrev main_v159 : Ref sig .tc := ⟨.hbm, 208, rfl⟩
abbrev main_c_36 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_cst_37 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  shapeCasts_S512_S1x512 : S512.ShapeCasts S1x512
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S256_S1x256 : S256.ShapeCasts S1x256
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x512_S256x512_0_0 : ∀ a, (![0, 0] : Fin 2 → Nat) a + S256x512.size a ≤ S256x512.size a
  h_S256x512 : 0 < S256x512.numel
  dot_S1000x512_S512x512_S1000x512_1_0_0_1_n_n_wf : DotDims.WF S1000x512 S512x512 S1000x512 [1] [0] [0] [1] [] []
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S1000x512_S512x256_S1000x256_1_0_0_1_n_n_wf : DotDims.WF S1000x512 S512x256 S1000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S1000x256_S256x512_S1000x512_1_0_0_1_n_n_wf : DotDims.WF S1000x256 S256x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S50000x512.size a
  hwx0_2 : ∀ i : grid0.Coords, EltTy.bits .f32 = 32 ∨ (Rect.block (s := S50000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S50000x256.size a
  hwx2_2 : ∀ i : grid2.Coords, EltTy.bits .f32 = 32 ∨ (Rect.block (s := S50000x256) S1000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x512.size a ≤ S256x512.size a
  hwx3_1 : ∀ i : grid3.Coords, EltTy.bits .f32 = 32 ∨ (Rect.block (s := S256x512) S256x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x512.size a ≤ S50000x512.size a
  hwx3_2 : ∀ i : grid3.Coords, EltTy.bits .f32 = 32 ∨ (Rect.block (s := S50000x512) S1000x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S50000x512.size a
  hwx4_0 : ∀ i : grid4.Coords, EltTy.bits .f32 = 32 ∨ (Rect.block (s := S50000x512) S1000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x512.size a ≤ S1x512.size a
  hwx4_1 : ∀ i : grid4.Coords, EltTy.bits .f32 = 32 ∨ (Rect.block (s := S1x512) S1x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x256.size a ≤ S512x256.size a
  hwx4_2 : ∀ i : grid4.Coords, EltTy.bits .f32 = 32 ∨ (Rect.block (s := S512x256) S512x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S50000x256.size a
  hwx4_3 : ∀ i : grid4.Coords, EltTy.bits .f32 = 32 ∨ (Rect.block (s := S50000x256) S1000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S50000x256.size a
  hwx5_0 : ∀ i : grid5.Coords, EltTy.bits .f32 = 32 ∨ (Rect.block (s := S50000x256) S1000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x256.size a ≤ S50000x256.size a
  hwx5_2 : ∀ i : grid5.Coords, EltTy.bits .f32 = 32 ∨ (Rect.block (s := S50000x256) S1000x256.size (cc5_transform_2 i) (hinb5_2 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v90) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v91) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v92) S1000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v92) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v133) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v134) S1x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S512x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v135) S1000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v175) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v176) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v177) S1000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S400000x512 : Shape := ⟨2, ![400000, 512]⟩
abbrev S50000x1 : Shape := ⟨2, ![50000, 1]⟩
abbrev S1x512 : Shape := ⟨2, ![1, 512]⟩
abbrev S50000x256 : Shape := ⟨2, ![50000, 256]⟩
abbrev S400000x256 : Shape := ⟨2, ![400000, 256]⟩
abbrev S1x256 : Shape := ⟨2, ![1, 256]⟩

abbrev nBuf : Space → Nat
  | .hbm => 247
  | .vmem => 0
  | .smem => 0
  | _ => 0

abbrev hbmTy0_0 (i : Nat) : BufTy := match i % 128 with
  | 0 => ⟨S50000x512, .f32⟩
  | 1 => ⟨S2x400000, .i32⟩
  | 2 => ⟨S2x400000, .i32⟩
  | 3 => ⟨S512x512, .f32⟩
  | 4 => ⟨S512, .f32⟩
  | 5 => ⟨S512x256, .f32⟩
  | 6 => ⟨S256, .f32⟩
  | 7 => ⟨S256x512, .f32⟩
  | 8 => ⟨S512, .f32⟩
  | 9 => ⟨S512x256, .f32⟩
  | 10 => ⟨S256, .f32⟩
  | 11 => ⟨S1x400000, .i32⟩
  | 12 => ⟨S400000, .i32⟩
  | 13 => ⟨S1x400000, .i32⟩
  | 14 => ⟨S400000, .i32⟩
  | 15 => ⟨S50000x512, .f32⟩
  | 16 => ⟨S_, .f32⟩
  | 17 => ⟨S400000, .f32⟩
  | 18 => ⟨S_, .f32⟩
  | 19 => ⟨S50000, .f32⟩
  | 20 => ⟨S400000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000, .f32⟩
  | 44 => ⟨S400000, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x512, .f32⟩
  | 54 => ⟨S400000x1, .f32⟩
  | 55 => ⟨S400000x512, .f32⟩
  | 56 => ⟨S400000x512, .f32⟩
  | 57 => ⟨S_, .f32⟩
  | 58 => ⟨S50000x512, .f32⟩
  | 59 => ⟨S400000x1, .i32⟩
  | 60 => ⟨S50000x512, .f32⟩
  | 61 => ⟨S50000, .f32⟩
  | 62 => ⟨S50000x1, .f32⟩
  | 63 => ⟨S50000x512, .f32⟩
  | 64 => ⟨S50000x512, .f32⟩
  | 65 => ⟨S50000x512, .f32⟩
  | 66 => ⟨S1x512, .f32⟩
  | 67 => ⟨S50000x512, .f32⟩
  | 68 => ⟨S50000x512, .f32⟩
  | 69 => ⟨S_, .f32⟩
  | 70 => ⟨S50000x512, .f32⟩
  | 71 => ⟨S50000x512, .f32⟩
  | 72 => ⟨S50000x256, .f32⟩
  | 73 => ⟨S_, .f32⟩
  | 74 => ⟨S400000, .f32⟩
  | 75 => ⟨S_, .f32⟩
  | 76 => ⟨S50000, .f32⟩
  | 77 => ⟨S400000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000, .f32⟩
  | 101 => ⟨S400000, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x256, .f32⟩
  | 111 => ⟨S400000x1, .f32⟩
  | 112 => ⟨S400000x256, .f32⟩
  | 113 => ⟨S400000x256, .f32⟩
  | 114 => ⟨S_, .f32⟩
  | 115 => ⟨S50000x256, .f32⟩
  | 116 => ⟨S400000x1, .i32⟩
  | 117 => ⟨S50000x256, .f32⟩
  | 118 => ⟨S50000, .f32⟩
  | 119 => ⟨S50000x1, .f32⟩
  | 120 => ⟨S50000x256, .f32⟩
  | 121 => ⟨S50000x256, .f32⟩
  | 122 => ⟨S50000x256, .f32⟩
  | 123 => ⟨S1x256, .f32⟩
  | 124 => ⟨S50000x256, .f32⟩
  | 125 => ⟨S50000x256, .f32⟩
  | 126 => ⟨S_, .f32⟩
  | 127 => ⟨S50000x256, .f32⟩
  | _ => ⟨S50000x512, .f32⟩

abbrev hbmTy0_1 (i : Nat) : BufTy := match i % 128 with
  | 0 => ⟨S50000x256, .f32⟩
  | 1 => ⟨S1x400000, .i32⟩
  | 2 => ⟨S400000, .i32⟩
  | 3 => ⟨S1x400000, .i32⟩
  | 4 => ⟨S400000, .i32⟩
  | 5 => ⟨S50000x512, .f32⟩
  | 6 => ⟨S_, .f32⟩
  | 7 => ⟨S400000, .f32⟩
  | 8 => ⟨S_, .f32⟩
  | 9 => ⟨S50000, .f32⟩
  | 10 => ⟨S400000x1, .i32⟩
  | 11 => ⟨S50000, .f32⟩
  | 12 => ⟨S_, .f32⟩
  | 13 => ⟨S50000, .f32⟩
  | 14 => ⟨S50000, .f32⟩
  | 15 => ⟨S50000, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000, .f32⟩
  | 34 => ⟨S400000, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x512, .f32⟩
  | 44 => ⟨S400000x1, .f32⟩
  | 45 => ⟨S400000x512, .f32⟩
  | 46 => ⟨S400000x512, .f32⟩
  | 47 => ⟨S_, .f32⟩
  | 48 => ⟨S50000x512, .f32⟩
  | 49 => ⟨S400000x1, .i32⟩
  | 50 => ⟨S50000x512, .f32⟩
  | 51 => ⟨S50000, .f32⟩
  | 52 => ⟨S50000x1, .f32⟩
  | 53 => ⟨S50000x512, .f32⟩
  | 54 => ⟨S50000x512, .f32⟩
  | 55 => ⟨S50000x512, .f32⟩
  | 56 => ⟨S1x512, .f32⟩
  | 57 => ⟨S50000x512, .f32⟩
  | 58 => ⟨S50000x512, .f32⟩
  | 59 => ⟨S_, .f32⟩
  | 60 => ⟨S50000x512, .f32⟩
  | 61 => ⟨S50000x512, .f32⟩
  | 62 => ⟨S50000x256, .f32⟩
  | 63 => ⟨S_, .f32⟩
  | 64 => ⟨S400000, .f32⟩
  | 65 => ⟨S_, .f32⟩
  | 66 => ⟨S50000, .f32⟩
  | 67 => ⟨S400000x1, .i32⟩
  | 68 => ⟨S50000, .f32⟩
  | 69 => ⟨S_, .f32⟩
  | 70 => ⟨S50000, .f32⟩
  | 71 => ⟨S50000, .f32⟩
  | 72 => ⟨S50000, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000, .f32⟩
  | 91 => ⟨S400000, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000x256, .f32⟩
  | 101 => ⟨S400000x1, .f32⟩
  | 102 => ⟨S400000x256, .f32⟩
  | 103 => ⟨S400000x256, .f32⟩
  | 104 => ⟨S_, .f32⟩
  | 105 => ⟨S50000x256, .f32⟩
  | 106 => ⟨S400000x1, .i32⟩
  | 107 => ⟨S50000x256, .f32⟩
  | 108 => ⟨S50000, .f32⟩
  | 109 => ⟨S50000x1, .f32⟩
  | 110 => ⟨S50000x256, .f32⟩
  | 111 => ⟨S50000x256, .f32⟩
  | 112 => ⟨S50000x256, .f32⟩
  | 113 => ⟨S1x256, .f32⟩
  | 114 => ⟨S50000x256, .f32⟩
  | 115 => ⟨S50000x256, .f32⟩
  | 116 => ⟨S_, .f32⟩
  | 117 => ⟨S50000x256, .f32⟩
  | 118 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_18 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_20 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_21 : Ref sig .tc := ⟨.hbm, 144, rfl⟩
abbrev main_v106 : Ref sig .tc := ⟨.hbm, 145, rfl⟩
abbrev main_v107 : Ref sig .tc := ⟨.hbm, 146, rfl⟩
abbrev main_c_22 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_23 : Ref sig .tc := ⟨.hbm, 153, rfl⟩
abbrev main_v113 : Ref sig .tc := ⟨.hbm, 154, rfl⟩
abbrev main_v114 : Ref sig .tc := ⟨.hbm, 155, rfl⟩
abbrev main_c_24 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_25 : Ref sig .tc := ⟨.hbm, 163, rfl⟩
abbrev main_v121 : Ref sig .tc := ⟨.hbm, 164, rfl⟩
abbrev main_v122 : Ref sig .tc := ⟨.hbm, 165, rfl⟩
abbrev main_c_26 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_27 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_call2_cst : Ref sig .tc := ⟨.hbm, 187, rfl⟩
abbrev main_call2_v0 : Ref sig .tc := ⟨.hbm, 188, rfl⟩
abbrev main_v142 : Ref sig .tc := ⟨.hbm, 189, rfl⟩
abbrev main_v143 : Ref sig .tc := ⟨.hbm, 190, rfl⟩
abbrev main_cst_28 : Ref sig .tc := ⟨.hbm, 191, rfl⟩
abbrev main_v144 : Ref sig .tc := ⟨.hbm, 192, rfl⟩
abbrev main_cst_29 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_30 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_c_31 : Ref sig .tc := ⟨.hbm, 201, rfl⟩
abbrev main_v151 : Ref sig .tc := ⟨.hbm, 202, rfl⟩
abbrev main_v152 : Ref sig .tc := ⟨.hbm, 203, rfl⟩
abbrev main_c_32 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_33 : Ref sig .tc := ⟨.hbm, 210, rfl⟩
abbrev main_v158 : Ref sig .tc := ⟨.hbm, 211, rfl⟩
abbrev main_v159 : Ref sig .tc := ⟨.hbm, 212, rfl⟩
abbrev main_c_34 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_c_35 : Ref sig .tc := ⟨.hbm, 220, rfl⟩
abbrev main_v166 : Ref sig .tc := ⟨.hbm, 221, rfl⟩
abbrev main_v167 : Ref sig .tc := ⟨.hbm, 222, rfl⟩
abbrev main_c_36 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_37 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_call3_cst : Ref sig .tc := ⟨.hbm, 244, rfl⟩
abbrev main_call3_v0 : Ref sig .tc := ⟨.hbm, 245, rfl⟩
abbrev main_v187 : Ref sig .tc := ⟨.hbm, 246, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S512x512_S50000x512_1_0_0_1_n_n_wf : DotDims.WF S50000x512 S512x512 S50000x512 [1] [0] [0] [1] [] []
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x256_S50000x256_1_0_0_1_n_n_wf : DotDims.WF S50000x512 S512x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x512_S50000x512_1_0_0_1_n_n_wf : DotDims.WF S50000x256 S256x512 S50000x512 [1] [0] [0] [1] [] []

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf

class Facts : Prop extends Facts₀ where

variable [Facts]
-- ==== Proof.NamedRun.lean ====
/-
  The idealized kernel's run with its two results named.

  The program is six grid regions among stretches of host operations. Its run is a walk along the segments: each
  stretch of host operations replaces the buffer contents by the operations' results, each region replaces its output
  array by what its grid points wrote back and leaves every other buffer alone. The contents at the twelve segment
  boundaries are one fold from the launch memory. Every weakly fair execution terminates, without a fault, in a state
  whose unscoped buffers hold the last boundary's contents; read at the two result buffers and at the eleven
  arguments this is the statement below: the results at the last contents, the arguments as launched.
-/
import proofs.«176306_j88407606821209_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the first result at the last
    boundary's contents of its buffer (written by the third region and by nothing after it), the second result at
    the last region's output, and every argument array as launched. -/
theorem run_named : θ_run defs (onTc (τ := τ) (main (F := F))) ⟨m, fun _ => 0, ρ⟩ (fun r => ∀ c : Dev nD,
      r.2.mem ((c.tc : Thread nD τ).loc main_v92) = W11 m ρ c (Proc.devRef .tc main_v92)
      ∧ r.2.mem ((c.tc : Thread nD τ).loc main_v177) = W11 m ρ c (Proc.devRef .tc main_v177)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v92 (by decide)),
       h c _ (mem_uc main_v177 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Named

end
-- ==== Proof.Layers.lean ====
/-
  The graph layers the two programs share, as functions of whole arrays.

  Both programs normalise and sum node features over the edges with the same host operations: the degree of a node
  counts the edges ending there plus one, an edge's weight is the product of its two ends' inverse square root
  degrees, and a node's new features are the weighted features of its in-neighbours plus its own over its degree.
  Named once here, these steps are carried through the comparison as opaque functions of their operands.
-/
import proofs.«176306_j88407606821209_1_alg».proof.KernelIdeal
import proofs.«176306_j88407606821209_1_alg».proof.Proof.Gen.KernelIdeal

noncomputable section

namespace Cert.KernelIdeal.Layers

open Idealize.ShloMosaic Cert.KernelIdeal Cert.KernelIdeal.Gen

variable {F : FTy → Type} [FloatOps F]

/-- Row 0 of an edge array [2, E] as a vector of E node numbers (the sources). -/
def edgeRow0 (ei : (⟨S2x400000, .i32⟩ : BufTy).Contents (Elt F)) : (⟨S400000, .i32⟩ : BufTy).Contents (Elt F) :=
  shapeCast S400000 (extractStridedSlice S1x400000 ![0, 0] ei slices_S2x400000_S1x400000_0_0) shapeCasts_S1x400000_S400000

/-- Row 1 of an edge array [2, E] as a vector of E node numbers (the destinations). -/
def edgeRow1 (ei : (⟨S2x400000, .i32⟩ : BufTy).Contents (Elt F)) : (⟨S400000, .i32⟩ : BufTy).Contents (Elt F) :=
  shapeCast S400000 (extractStridedSlice S1x400000 ![1, 0] ei slices_S2x400000_S1x400000_1_0) shapeCasts_S1x400000_S400000

/-- Node numbers as a column of gather positions: a negative number counts from the end (the extent 50000 is added). -/
def wrapCol (e : (⟨S400000, .i32⟩ : BufTy).Contents (Elt F)) : (⟨S400000x1, .i32⟩ : BufTy).Contents (Elt F) :=
  broadcastInDim S400000x1 ![0] bcast_S400000_S400000x1_0
    (select (cmpi .slt e (broadcastInDim S400000 ![] bcast_S_S400000 (constantI S_ 32 0#32)))
      (addi e (broadcastInDim S400000 ![] bcast_S_S400000 (constantI S_ 32 50000#32))) e)

/-- Node numbers as a column of scatter positions, as they are. -/
def plainCol (e : (⟨S400000, .i32⟩ : BufTy).Contents (Elt F)) : (⟨S400000x1, .i32⟩ : BufTy).Contents (Elt F) :=
  broadcastInDim S400000x1 ![0] bcast_S400000_S400000x1_0 e

/-- The inverse square root of each node's degree: one plus the number of edges that end at the node. -/
def invSqrtDeg (dst : (⟨S400000, .i32⟩ : BufTy).Contents (Elt F)) : (⟨S50000, .f32⟩ : BufTy).Contents (Elt F) :=
  Host.rsqrt (addf
    (Host.scatterAdd scatter_S50000_S400000x1_S400000_n_0_0_1 (broadcastInDim S50000 ![] bcast_S_S50000 (constant S_ .f32 0x00000000#32))
      (plainCol dst) (broadcastInDim S400000 ![] bcast_S_S400000 (constant S_ .f32 0x3F800000#32)))
    (broadcastInDim S50000 ![] bcast_S_S50000 (constant S_ .f32 0x3F800000#32)))

/-- The weight of each edge: the product of the two end nodes' inverse square root degrees. -/
def edgeCoef (src dst : (⟨S400000, .i32⟩ : BufTy).Contents (Elt F)) : (⟨S400000, .f32⟩ : BufTy).Contents (Elt F) :=
  mulf (Host.gather gather_S50000_S400000x1_S400000_n_0_n_n_0_1_1 (invSqrtDeg dst) (wrapCol src))
    (Host.gather gather_S50000_S400000x1_S400000_n_0_n_n_0_1_1 (invSqrtDeg dst) (wrapCol dst))

/-- The normalised neighbourhood sum of 512 features per node: the weighted rows of the sources added into the
    destinations' rows, plus each node's own row over its degree. -/
def aggregate512 (h : (⟨S50000x512, .f32⟩ : BufTy).Contents (Elt F)) (src dst : (⟨S400000, .i32⟩ : BufTy).Contents (Elt F)) :
    (⟨S50000x512, .f32⟩ : BufTy).Contents (Elt F) :=
  addf
    (Host.scatterAdd scatter_S50000x512_S400000x1_S400000x512_1_0_0_1
      (broadcastInDim S50000x512 ![] bcast_S_S50000x512 (constant S_ .f32 0x00000000#32)) (plainCol dst)
      (mulf (Host.gather gather_S50000x512_S400000x1_S400000x512_1_0_n_n_0_1_1512 h (wrapCol src))
        (broadcastInDim S400000x512 ![0, 1] bcast_S400000x1_S400000x512_0_1
          (broadcastInDim S400000x1 ![0] bcast_S400000_S400000x1_0 (edgeCoef src dst)))))
    (mulf h (broadcastInDim S50000x512 ![0, 1] bcast_S50000x1_S50000x512_0_1
      (broadcastInDim S50000x1 ![0] bcast_S50000_S50000x1_0 (mulf (invSqrtDeg dst) (invSqrtDeg dst)))))

/-- The same sum of 256 features per node. -/
def aggregate256 (h : (⟨S50000x256, .f32⟩ : BufTy).Contents (Elt F)) (src dst : (⟨S400000, .i32⟩ : BufTy).Contents (Elt F)) :
    (⟨S50000x256, .f32⟩ : BufTy).Contents (Elt F) :=
  addf
    (Host.scatterAdd scatter_S50000x256_S400000x1_S400000x256_1_0_0_1
      (broadcastInDim S50000x256 ![] bcast_S_S50000x256 (constant S_ .f32 0x00000000#32)) (plainCol dst)
      (mulf (Host.gather gather_S50000x256_S400000x1_S400000x256_1_0_n_n_0_1_1256 h (wrapCol src))
        (broadcastInDim S400000x256 ![0, 1] bcast_S400000x1_S400000x256_0_1
          (broadcastInDim S400000x1 ![0] bcast_S400000_S400000x1_0 (edgeCoef src dst)))))
    (mulf h (broadcastInDim S50000x256 ![0, 1] bcast_S50000x1_S50000x256_0_1
      (broadcastInDim S50000x1 ![0] bcast_S50000_S50000x1_0 (mulf (invSqrtDeg dst) (invSqrtDeg dst)))))

end Cert.KernelIdeal.Layers

end
-- ==== Proof.Stretches.lean ====
/-
  The stretches of host operations between the kernel's regions, read one result at a time.

  Each stretch is a line of operations over buffers. What a buffer holds after the line is the composition of the
  operations that lead to it, applied to what the line found in the buffers it only reads; a buffer no operation of the
  line writes holds what it held. The first stretch cuts the two edge arrays into source and destination vectors; each
  later stretch is one normalised neighbourhood sum of the preceding region's output, and a bias vector laid out as a
  one-row matrix for the next region.
-/
import proofs.«176306_j88407606821209_1_alg».proof.Proof.Gen.KernelIdeal.Launch
import proofs.«176306_j88407606821209_1_alg».proof.Proof.Layers
import Idealize.ShloMosaic.Lib.StableHlo.Run

set_option maxRecDepth 16384

noncomputable section

namespace Cert.KernelIdeal.Stretches

open Idealize.ShloMosaic Idealize.ShloMosaic.TcCoe Idealize.ShloMosaic.StableHlo Idealize.SL.Sem
open Cert.KernelIdeal Cert.KernelIdeal.Gen Cert.KernelIdeal.Layers

variable {F : FTy → Type} [FloatOps F] (X : Valuation τ sig (Elt F))

/-! ## The edge vectors -/

theorem edges_v1 : StableHlo.after hostOps0 X (Proc.devRef .tc main_v1) = edgeRow0 (X (Proc.devRef .tc main_arg1)) := by
  dsimp only [hostOps0]; after_results_simp; rfl
theorem edges_v3 : StableHlo.after hostOps0 X (Proc.devRef .tc main_v3) = edgeRow1 (X (Proc.devRef .tc main_arg1)) := by
  dsimp only [hostOps0]; after_results_simp; rfl
theorem edges_v5 : StableHlo.after hostOps0 X (Proc.devRef .tc main_v5) = edgeRow0 (X (Proc.devRef .tc main_arg2)) := by
  dsimp only [hostOps0]; after_results_simp; rfl
theorem edges_v7 : StableHlo.after hostOps0 X (Proc.devRef .tc main_v7) = edgeRow1 (X (Proc.devRef .tc main_arg2)) := by
  dsimp only [hostOps0]; after_results_simp; rfl

/-! ## The neighbourhood sums and the bias rows -/

theorem sum1 : StableHlo.after hostOps1 X (Proc.devRef .tc main_v48)
    = aggregate512 (X (Proc.devRef .tc main_v8)) (X (Proc.devRef .tc main_v1)) (X (Proc.devRef .tc main_v3)) := by
  dsimp only [hostOps1]; after_results_simp; rfl
theorem bias1 : StableHlo.after hostOps1 X (Proc.devRef .tc main_v49)
    = shapeCast S1x512 (X (Proc.devRef .tc main_arg4)) shapeCasts_S512_S1x512 := by
  dsimp only [hostOps1]; after_results_simp; rfl

theorem sum2 : StableHlo.after hostOps2 X (Proc.devRef .tc main_v90)
    = aggregate256 (X (Proc.devRef .tc main_v50)) (X (Proc.devRef .tc main_v1)) (X (Proc.devRef .tc main_v3)) := by
  dsimp only [hostOps2]; after_results_simp; rfl
theorem bias2 : StableHlo.after hostOps2 X (Proc.devRef .tc main_v91)
    = shapeCast S1x256 (X (Proc.devRef .tc main_arg6)) shapeCasts_S256_S1x256 := by
  dsimp only [hostOps2]; after_results_simp; rfl

theorem sum4 : StableHlo.after hostOps4 X (Proc.devRef .tc main_v133)
    = aggregate512 (X (Proc.devRef .tc main_v93)) (X (Proc.devRef .tc main_v5)) (X (Proc.devRef .tc main_v7)) := by
  dsimp only [hostOps4]; after_results_simp; rfl
theorem bias4 : StableHlo.after hostOps4 X (Proc.devRef .tc main_v134)
    = shapeCast S1x512 (X (Proc.devRef .tc main_arg8)) shapeCasts_S512_S1x512 := by
  dsimp only [hostOps4]; after_results_simp; rfl

theorem sum5 : StableHlo.after hostOps5 X (Proc.devRef .tc main_v175)
    = aggregate256 (X (Proc.devRef .tc main_v135)) (X (Proc.devRef .tc main_v5)) (X (Proc.devRef .tc main_v7)) := by
  dsimp only [hostOps5]; after_results_simp; rfl
theorem bias5 : StableHlo.after hostOps5 X (Proc.devRef .tc main_v176)
    = shapeCast S1x256 (X (Proc.devRef .tc main_arg10)) shapeCasts_S256_S1x256 := by
  dsimp only [hostOps5]; after_results_simp; rfl

/-! ## Buffers a stretch does not write -/

theorem pass0_main_arg0 : StableHlo.after hostOps0 X (Proc.devRef .tc main_arg0) = X (Proc.devRef .tc main_arg0) := by
  dsimp only [hostOps0]; after_results_simp
theorem pass0_main_arg3 : StableHlo.after hostOps0 X (Proc.devRef .tc main_arg3) = X (Proc.devRef .tc main_arg3) := by
  dsimp only [hostOps0]; after_results_simp
theorem pass0_main_arg4 : StableHlo.after hostOps0 X (Proc.devRef .tc main_arg4) = X (Proc.devRef .tc main_arg4) := by
  dsimp only [hostOps0]; after_results_simp
theorem pass0_main_arg5 : StableHlo.after hostOps0 X (Proc.devRef .tc main_arg5) = X (Proc.devRef .tc main_arg5) := by
  dsimp only [hostOps0]; after_results_simp
theorem pass0_main_arg6 : StableHlo.after hostOps0 X (Proc.devRef .tc main_arg6) = X (Proc.devRef .tc main_arg6) := by
  dsimp only [hostOps0]; after_results_simp
theorem pass0_main_arg7 : StableHlo.after hostOps0 X (Proc.devRef .tc main_arg7) = X (Proc.devRef .tc main_arg7) := by
  dsimp only [hostOps0]; after_results_simp
theorem pass0_main_arg8 : StableHlo.after hostOps0 X (Proc.devRef .tc main_arg8) = X (Proc.devRef .tc main_arg8) := by
  dsimp only [hostOps0]; after_results_simp
theorem pass0_main_arg9 : StableHlo.after hostOps0 X (Proc.devRef .tc main_arg9) = X (Proc.devRef .tc main_arg9) := by
  dsimp only [hostOps0]; after_results_simp
theorem pass0_main_arg10 : StableHlo.after hostOps0 X (Proc.devRef .tc main_arg10) = X (Proc.devRef .tc main_arg10) := by
  dsimp only [hostOps0]; after_results_simp
theorem pass1_main_v1 : StableHlo.after hostOps1 X (Proc.devRef .tc main_v1) = X (Proc.devRef .tc main_v1) := by
  dsimp only [hostOps1]; after_results_simp
theorem pass1_main_v3 : StableHlo.after hostOps1 X (Proc.devRef .tc main_v3) = X (Proc.devRef .tc main_v3) := by
  dsimp only [hostOps1]; after_results_simp
theorem pass1_main_v5 : StableHlo.after hostOps1 X (Proc.devRef .tc main_v5) = X (Proc.devRef .tc main_v5) := by
  dsimp only [hostOps1]; after_results_simp
theorem pass1_main_v7 : StableHlo.after hostOps1 X (Proc.devRef .tc main_v7) = X (Proc.devRef .tc main_v7) := by
  dsimp only [hostOps1]; after_results_simp
theorem pass1_main_arg5 : StableHlo.after hostOps1 X (Proc.devRef .tc main_arg5) = X (Proc.devRef .tc main_arg5) := by
  dsimp only [hostOps1]; after_results_simp
theorem pass1_main_arg6 : StableHlo.after hostOps1 X (Proc.devRef .tc main_arg6) = X (Proc.devRef .tc main_arg6) := by
  dsimp only [hostOps1]; after_results_simp
theorem pass1_main_arg7 : StableHlo.after hostOps1 X (Proc.devRef .tc main_arg7) = X (Proc.devRef .tc main_arg7) := by
  dsimp only [hostOps1]; after_results_simp
theorem pass1_main_arg8 : StableHlo.after hostOps1 X (Proc.devRef .tc main_arg8) = X (Proc.devRef .tc main_arg8) := by
  dsimp only [hostOps1]; after_results_simp
theorem pass1_main_arg9 : StableHlo.after hostOps1 X (Proc.devRef .tc main_arg9) = X (Proc.devRef .tc main_arg9) := by
  dsimp only [hostOps1]; after_results_simp
theorem pass1_main_arg10 : StableHlo.after hostOps1 X (Proc.devRef .tc main_arg10) = X (Proc.devRef .tc main_arg10) := by
  dsimp only [hostOps1]; after_results_simp
theorem pass2_main_v5 : StableHlo.after hostOps2 X (Proc.devRef .tc main_v5) = X (Proc.devRef .tc main_v5) := by
  dsimp only [hostOps2]; after_results_simp
theorem pass2_main_v7 : StableHlo.after hostOps2 X (Proc.devRef .tc main_v7) = X (Proc.devRef .tc main_v7) := by
  dsimp only [hostOps2]; after_results_simp
theorem pass2_main_arg7 : StableHlo.after hostOps2 X (Proc.devRef .tc main_arg7) = X (Proc.devRef .tc main_arg7) := by
  dsimp only [hostOps2]; after_results_simp
theorem pass2_main_arg8 : StableHlo.after hostOps2 X (Proc.devRef .tc main_arg8) = X (Proc.devRef .tc main_arg8) := by
  dsimp only [hostOps2]; after_results_simp
theorem pass2_main_arg9 : StableHlo.after hostOps2 X (Proc.devRef .tc main_arg9) = X (Proc.devRef .tc main_arg9) := by
  dsimp only [hostOps2]; after_results_simp
theorem pass2_main_arg10 : StableHlo.after hostOps2 X (Proc.devRef .tc main_arg10) = X (Proc.devRef .tc main_arg10) := by
  dsimp only [hostOps2]; after_results_simp
theorem pass4_main_v5 : StableHlo.after hostOps4 X (Proc.devRef .tc main_v5) = X (Proc.devRef .tc main_v5) := by
  dsimp only [hostOps4]; after_results_simp
theorem pass4_main_v7 : StableHlo.after hostOps4 X (Proc.devRef .tc main_v7) = X (Proc.devRef .tc main_v7) := by
  dsimp only [hostOps4]; after_results_simp
theorem pass4_main_arg9 : StableHlo.after hostOps4 X (Proc.devRef .tc main_arg9) = X (Proc.devRef .tc main_arg9) := by
  dsimp only [hostOps4]; after_results_simp
theorem pass4_main_arg10 : StableHlo.after hostOps4 X (Proc.devRef .tc main_arg10) = X (Proc.devRef .tc main_arg10) := by
  dsimp only [hostOps4]; after_results_simp
theorem pass4_main_v92 : StableHlo.after hostOps4 X (Proc.devRef .tc main_v92) = X (Proc.devRef .tc main_v92) := by
  dsimp only [hostOps4]; after_results_simp
theorem pass5_main_v92 : StableHlo.after hostOps5 X (Proc.devRef .tc main_v92) = X (Proc.devRef .tc main_v92) := by
  dsimp only [hostOps5]; after_results_simp

end Cert.KernelIdeal.Stretches

end
-- ==== Proof.Spec.lean ====
/-
  What both programs compute, as two functions of the argument arrays.

  Each encoder is two graph convolutions. A convolution multiplies the node features by a weight matrix, sums each
  node's neighbourhood with the symmetric degree normalisation, adds a bias to every row and keeps the positive part.
  The first encoder's output is the first result; the second encoder reads it, over the second edge list, and gives
  the second result.
-/
import proofs.«176306_j88407606821209_1_alg».proof.Proof.Layers
import proofs.«176306_j88407606821209_1_alg».proof.ReferenceIdeal
import proofs.«176306_j88407606821209_1_alg».proof.Proof.Gen.ReferenceIdeal

noncomputable section

namespace Cert.KernelIdeal.Layers

open Idealize.ShloMosaic Cert.KernelIdeal Cert.KernelIdeal.Gen

variable {F : FTy → Type} [FloatOps F]

/-- A bias vector added to every row, then the positive part, 512 features per node. -/
def biasRelu512 (a : (⟨S50000x512, .f32⟩ : BufTy).Contents (Elt F)) (b : (⟨S512, .f32⟩ : BufTy).Contents (Elt F)) :
    (⟨S50000x512, .f32⟩ : BufTy).Contents (Elt F) :=
  maximumf
    (addf a (broadcastInDim S50000x512 ![0, 1] Cert.ReferenceIdeal.Gen.bcast_S1x512_S50000x512_0_1
      (broadcastInDim S1x512 ![1] Cert.ReferenceIdeal.Gen.bcast_S512_S1x512_1 b)))
    (broadcastInDim S50000x512 ![] bcast_S_S50000x512 (constant S_ .f32 0x00000000#32))

/-- The same with 256 features per node. -/
def biasRelu256 (a : (⟨S50000x256, .f32⟩ : BufTy).Contents (Elt F)) (b : (⟨S256, .f32⟩ : BufTy).Contents (Elt F)) :
    (⟨S50000x256, .f32⟩ : BufTy).Contents (Elt F) :=
  maximumf
    (addf a (broadcastInDim S50000x256 ![0, 1] Cert.ReferenceIdeal.Gen.bcast_S1x256_S50000x256_0_1
      (broadcastInDim S1x256 ![1] Cert.ReferenceIdeal.Gen.bcast_S256_S1x256_1 b)))
    (broadcastInDim S50000x256 ![] bcast_S_S50000x256 (constant S_ .f32 0x00000000#32))

/-- The first encoder's output: from 512 input features, a graph convolution to 512 features and one to 256, each a
    linear map, the normalised neighbourhood sum, a bias and the positive part. -/
def encoder1 (x : (⟨S50000x512, .f32⟩ : BufTy).Contents (Elt F)) (ei : (⟨S2x400000, .i32⟩ : BufTy).Contents (Elt F))
    (w1 : (⟨S512x512, .f32⟩ : BufTy).Contents (Elt F)) (b1 : (⟨S512, .f32⟩ : BufTy).Contents (Elt F))
    (w2 : (⟨S512x256, .f32⟩ : BufTy).Contents (Elt F)) (b2 : (⟨S256, .f32⟩ : BufTy).Contents (Elt F)) :
    (⟨S50000x256, .f32⟩ : BufTy).Contents (Elt F) :=
  biasRelu256
    (aggregate256
      (Host.dotGeneral (φ₁ := .f32) (φ₂ := .f32) Cert.ReferenceIdeal.dot_S50000x512_S512x256_S50000x256_1_0_0_1_n_n none
        (biasRelu512
          (aggregate512 (Host.dotGeneral (φ₁ := .f32) (φ₂ := .f32) Cert.ReferenceIdeal.dot_S50000x512_S512x512_S50000x512_1_0_0_1_n_n none x w1)
            (edgeRow0 ei) (edgeRow1 ei))
          b1)
        w2)
      (edgeRow0 ei) (edgeRow1 ei))
    b2

/-- The second encoder's output: from the first encoder's 256 features, a graph convolution to 512 features and one
    to 256, over the second edge list. -/
def encoder2 (z : (⟨S50000x256, .f32⟩ : BufTy).Contents (Elt F)) (ei : (⟨S2x400000, .i32⟩ : BufTy).Contents (Elt F))
    (w3 : (⟨S256x512, .f32⟩ : BufTy).Contents (Elt F)) (b3 : (⟨S512, .f32⟩ : BufTy).Contents (Elt F))
    (w4 : (⟨S512x256, .f32⟩ : BufTy).Contents (Elt F)) (b4 : (⟨S256, .f32⟩ : BufTy).Contents (Elt F)) :
    (⟨S50000x256, .f32⟩ : BufTy).Contents (Elt F) :=
  biasRelu256
    (aggregate256
      (Host.dotGeneral (φ₁ := .f32) (φ₂ := .f32) Cert.ReferenceIdeal.dot_S50000x512_S512x256_S50000x256_1_0_0_1_n_n none
        (biasRelu512
          (aggregate512 (Host.dotGeneral (φ₁ := .f32) (φ₂ := .f32) Cert.ReferenceIdeal.dot_S50000x256_S256x512_S50000x512_1_0_0_1_n_n none z w3)
            (edgeRow0 ei) (edgeRow1 ei))
          b3)
        w4)
      (edgeRow0 ei) (edgeRow1 ei))
    b4

end Cert.KernelIdeal.Layers

end
-- ==== Proof.LibSameOps.lean ====
/-
  Kernel-side vector operations and the host's operations that compute the same array.

  A Pallas kernel body and a jnp reference spell one mathematical step in two vocabularies: a lane
  reduction (`vector.multi_reduction`) against `stablehlo.reduce`; a `vector.shape_cast` that adds a
  unit axis, or a `vector.broadcast`, against `stablehlo.broadcast_in_dim`; a scalar splat against the
  broadcast of a rank-0 constant. Read at the extended reals each pair is ONE function of the operand
  array. The lemmas below state that, as equalities of whole arrays, generic in the extents, so that a
  proof about two programs that take the same steps in the same order can rewrite one vocabulary into the
  other and compare terms.
-/
import Idealize.ShloMosaic.PureOps.Ideal.Laws
import Idealize.ShloMosaic.Lib.Pipeline.Value
import Idealize.ShloMosaic.Lib.ValueIdx

noncomputable section

namespace Cert.SameOps

open Idealize.ShloMosaic

variable {α : Type}

/-! ## Reductions over one axis

  A printed reduction carries a proof that its accumulator word is the operation's neutral word; printed, that
  proof is of the word's equality with itself, and the lemmas below take it in that form. -/

/-- The sum over one axis from the zero word: the kernel's lane sum is the host's `reduce` with an `add`
    body from the rank-0 zero. Both are, at each kept index, the exact sum over the dropped coordinate. -/
theorem laneSum_eq_hostSum {s t u : Shape} {a : Fin s.rank} (src : FVec Ideal s .f32)
    (h : s.Reduces [a] t) (hφ : FKind.Formats .f32) (hacc : (0x00000000#32 : BitVec 32) = 0x00000000#32)
    (h' : s.ReducesTo [a] t) (hu : 0 < u.numel) :
    multiReduction .add [a] t src 0x00000000#32 h hφ hacc
      = Host.reduceAdd src (constant u .f32 0x00000000#32) h' hu := by
  funext j
  refine (Ideal.multiReduction_add_single src _ h hφ hacc j).trans ?_
  simp only [Host.reduceAdd, Ideal.hostReduceAdd_def]
  rw [Ideal.hostReduceAdd_single h' h]
  show _ = Ideal.ofBits .f32 0x00000000#32 + _
  rw [Ideal.ofBits_zero_f32, zero_add]

/-- The minimum over one axis from +∞: the kernel's lane minimum is the host's `reduce` with a `minimum`
    body from the rank-0 constant +∞: the fold of `min` from the seed over the dropped coordinate, in any
    order. -/
theorem laneMin_eq_hostMin {s t u : Shape} {a : Fin s.rank} (src : FVec Ideal s .f32)
    (h : s.Reduces [a] t) (hφ : FKind.Formats .f32) (hacc : (0x7F800000#32 : BitVec 32) = 0x7F800000#32)
    (h' : s.ReducesTo [a] t) (hu : 0 < u.numel) :
    multiReduction .minimumf [a] t src 0x7F800000#32 h hφ hacc
      = Host.reduce FloatOps.minimumf src (constant u .f32 0x7F800000#32) h' hu := by
  funext j
  refine (multiReduction_minimumf_eq_fold src _ h hφ hacc j).trans ?_
  rw [h.fold_filter_drop_single, Host.reduce_eq_fold_single FloatOps.minimumf src _ h' h hu]
  rfl

/-- The maximum over one axis from −∞, likewise. -/
theorem laneMax_eq_hostMax {s t u : Shape} {a : Fin s.rank} (src : FVec Ideal s .f32)
    (h : s.Reduces [a] t) (hφ : FKind.Formats .f32) (hacc : (0xFF800000#32 : BitVec 32) = 0xFF800000#32)
    (h' : s.ReducesTo [a] t) (hu : 0 < u.numel) :
    multiReduction .maximumf [a] t src 0xFF800000#32 h hφ hacc
      = Host.reduce FloatOps.maximumf src (constant u .f32 0xFF800000#32) h' hu := by
  funext j
  refine (multiReduction_maximumf_eq_fold src _ h hφ hacc j).trans ?_
  rw [h.fold_filter_drop_single, Host.reduce_eq_fold_single FloatOps.maximumf src _ h' h hu]
  rfl

/-! ## Unit axes and broadcasts -/

/-- A vector of `a` entries as a column: the shape cast [a] → [a, 1] is the broadcast along new axis 1
    (`dims = [0]`): entry (p, 0) is entry p. -/
theorem castCol_eq_bcast {a : Nat} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v h = broadcastInDim ⟨2, ![a, 1]⟩ ![0] hb v := by
  funext j
  have h1 : (j 1).val < 1 := (j 1).isLt
  have h0 : (j 0).val < a := (j 0).isLt
  rw [shapeCast_apply v h j (ValueIdx.ix1 (⟨(j 0).val, h0⟩ : Fin a)) (by
      rw [Shape.rowMajor_val_one, Shape.rowMajor_val_two]
      show (j 0).val = (j 0).val * 1 + (j 1).val
      omega),
    broadcastInDim_apply ![0] hb v j (ValueIdx.ix1 (⟨(j 0).val, h0⟩ : Fin a)) (fun b => by
      match b with
      | ⟨0, _⟩ =>
        show (j 0).val = if a = 1 then 0 else (j 0).val
        split_ifs with e
        · omega
        · rfl)]

/-- A vector of `b` entries as a row: the shape cast [b] → [1, b] is the broadcast along new axis 0
    (`dims = [1]`): entry (0, q) is entry q. -/
theorem castRow_eq_bcast {b : Nat} (v : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ v h = broadcastInDim ⟨2, ![1, b]⟩ ![1] hb v := by
  funext j
  have h0 : (j 0).val < 1 := (j 0).isLt
  have h1 : (j 1).val < b := (j 1).isLt
  rw [shapeCast_apply v h j (ValueIdx.ix1 (⟨(j 1).val, h1⟩ : Fin b)) (by
      rw [Shape.rowMajor_val_one, Shape.rowMajor_val_two]
      show (j 1).val = (j 0).val * b + (j 1).val
      have : (j 0).val = 0 := by omega
      rw [this, Nat.zero_mul, Nat.zero_add]),
    broadcastInDim_apply ![1] hb v j (ValueIdx.ix1 (⟨(j 1).val, h1⟩ : Fin b)) (fun c => by
      match c with
      | ⟨0, _⟩ =>
        show (j 1).val = if b = 1 then 0 else (j 1).val
        split_ifs with e
        · omega
        · rfl)]

/-- Between two rank-2 shapes a `vector.broadcast` is the `broadcast_in_dim` with `dims = [0, 1]`: each
    unit axis of the operand is read at 0, each other axis at the result's coordinate. -/
theorem broadcastTo_eq_inDim2 {d e : Fin 2 → Nat} (v : (⟨2, d⟩ : Shape).Idx → α)
    (h : (⟨2, d⟩ : Shape).Broadcasts ⟨2, e⟩) (hb : (⟨2, d⟩ : Shape).BroadcastsInDim ⟨2, e⟩ ![0, 1]) :
    broadcastTo ⟨2, e⟩ v h = broadcastInDim ⟨2, e⟩ ![0, 1] hb v := by
  funext j
  unfold broadcastTo broadcastInDim
  refine congrArg v (funext fun a => ?_)
  by_cases h1 : (⟨2, d⟩ : Shape).size a = 1
  · rw [dif_pos h1, dif_pos h1]
  · rw [dif_neg h1, dif_neg h1]
    apply Fin.ext
    match a with
    | ⟨0, _⟩ => rfl
    | ⟨1, _⟩ => rfl

/-- A scalar splat is the broadcast of the rank-0 constant of the same word. -/
theorem splat_eq_bcast {t : Shape} (w : BitVec 32) (hb : (⟨0, ![]⟩ : Shape).BroadcastsInDim t ![]) :
    broadcast t (Scalar.ofBits (F := Ideal) .f32 w) = broadcastInDim t ![] hb (constant (F := Ideal) ⟨0, ![]⟩ .f32 w) := by
  funext j
  rfl

/-- A shape cast to the same shape changes nothing. -/
theorem shapeCast_same {s : Shape} (v : s.Idx → α) (h : s.ShapeCasts s) : shapeCast s v h = v :=
  shapeCast_self v h

/-! ## Elementwise operations: one spelling in a kernel body, another on the host -/

variable {s : Shape}

theorem sqrt_eq_host (v : FVec Ideal s .f32) : sqrt v = Host.sqrt v := rfl
theorem exp_eq_host (v : FVec Ideal s .f32) : exp v = Host.exp v := rfl
theorem tanh_eq_host (v : FVec Ideal s .f32) : tanh v = Host.tanh v := rfl
theorem divf_eq_host (v w : FVec Ideal s .f32) : divf v w = Host.divf v w := rfl

/-! ## Products with one contracted axis -/

/-- A `tpu.matmul` into the zero accumulator, read at an entry: the sum over the one contracted
    coordinate of the products of the operands at the indices the caller names (`li`, `ri`). -/
theorem matmul_zero_sum {sl sr so : Shape} (d : DotDims sl sr so) (n : Nat) (hr : d.contr.rank = 1)
    (hs : d.contr.size ⟨0, by omega⟩ = n) (l : FVec Ideal sl .f32) (r : FVec Ideal sr .f32) (j : so.Idx)
    (li : Fin n → sl.Idx) (ri : Fin n → sr.Idx)
    (hl : ∀ k, d.lhsIdx j ((ValueIdx.contrEquiv1 d n hr hs).symm k) = li k)
    (hri : ∀ k, d.rhsIdx j ((ValueIdx.contrEquiv1 d n hr hs).symm k) = ri k) :
    matmul d none l r (constant so .f32 0x00000000#32) j = ∑ k : Fin n, l (li k) * r (ri k) := by
  simp only [matmul]
  rw [Ideal.matmul_constant_zero_apply, ← Equiv.sum_comp (ValueIdx.contrEquiv1 d n hr hs).symm]
  exact Finset.sum_congr rfl fun k _ => by rw [hl k, hri k]

/-- The host's `dot_general`, read at an entry, likewise. -/
theorem hostDot_sum {sl sr so : Shape} (d : DotDims sl sr so) (n : Nat) (hr : d.contr.rank = 1)
    (hs : d.contr.size ⟨0, by omega⟩ = n) (l : FVec Ideal sl .f32) (r : FVec Ideal sr .f32) (j : so.Idx)
    (li : Fin n → sl.Idx) (ri : Fin n → sr.Idx)
    (hl : ∀ k, d.lhsIdx j ((ValueIdx.contrEquiv1 d n hr hs).symm k) = li k)
    (hri : ∀ k, d.rhsIdx j ((ValueIdx.contrEquiv1 d n hr hs).symm k) = ri k) :
    Host.dotGeneral d none l r j = ∑ k : Fin n, l (li k) * r (ri k) := by
  simp only [Host.dotGeneral]
  rw [Ideal.dotGeneral_apply, ← Equiv.sum_comp (ValueIdx.contrEquiv1 d n hr hs).symm]
  exact Finset.sum_congr rfl fun k _ => by rw [hl k, hri k]

end Cert.SameOps

end
-- ==== Proof.Chain.lean ====
/-
  The idealized kernel's two results, read back through its segments.

  The contents of the buffers at the twelve segment boundaries are a fold from the launch memory. Walking it from the
  launch: the first stretch cuts the edge arrays into source and destination vectors; the first region writes the
  product of the features with the first weights; a stretch sums neighbourhoods; the second region adds the first
  bias, keeps the positive part and multiplies by the second weights; a stretch sums neighbourhoods; the third region
  adds the second bias and keeps the positive part — the first result —; the fourth, fifth and sixth regions and the
  two stretches between them repeat the pattern over the second edge list from the first result. No segment writes an
  argument, an edge vector once cut, or the first result once written. Each region's output array is taken here as the
  closed form of its inputs (the six hypotheses); with them the two result buffers hold the two encoders of the
  argument arrays.
-/
import proofs.«176306_j88407606821209_1_alg».proof.Proof.Gen.KernelIdeal.Frame
import proofs.«176306_j88407606821209_1_alg».proof.Proof.Stretches
import proofs.«176306_j88407606821209_1_alg».proof.Proof.Spec
import proofs.«176306_j88407606821209_1_alg».proof.Proof.LibSameOps

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen Cert.KernelIdeal.Layers Cert.KernelIdeal.Stretches

variable (m : (ℓ : Loc nD τ sig) → Buf (Elt Ideal) ℓ) (ρ : Dev nD → PrngReg) (c : Dev nD)

/-! ## Buffers that reach a boundary unwritten -/

theorem at1_main_arg0 : W1 m ρ c (Proc.devRef .tc main_arg0) = m ((c : Thread nD τ).loc main_arg0) :=
  ((pass0_main_arg0 (W0 m ρ c)).trans rfl)
theorem at1_main_arg3 : W1 m ρ c (Proc.devRef .tc main_arg3) = m ((c : Thread nD τ).loc main_arg3) :=
  ((pass0_main_arg3 (W0 m ρ c)).trans rfl)
theorem at2_main_arg4 : W2 m ρ c (Proc.devRef .tc main_arg4) = m ((c : Thread nD τ).loc main_arg4) :=
  ((W2_of_ne m ρ c main_arg4 (by decide)).trans ((pass0_main_arg4 (W0 m ρ c)).trans rfl))
theorem at3_main_arg5 : W3 m ρ c (Proc.devRef .tc main_arg5) = m ((c : Thread nD τ).loc main_arg5) :=
  ((pass1_main_arg5 (W2 m ρ c)).trans ((W2_of_ne m ρ c main_arg5 (by decide)).trans ((pass0_main_arg5 (W0 m ρ c)).trans rfl)))
theorem at4_main_arg6 : W4 m ρ c (Proc.devRef .tc main_arg6) = m ((c : Thread nD τ).loc main_arg6) :=
  ((W4_of_ne m ρ c main_arg6 (by decide)).trans ((pass1_main_arg6 (W2 m ρ c)).trans ((W2_of_ne m ρ c main_arg6 (by decide)).trans ((pass0_main_arg6 (W0 m ρ c)).trans rfl))))
theorem at6_main_arg7 : W6 m ρ c (Proc.devRef .tc main_arg7) = m ((c : Thread nD τ).loc main_arg7) :=
  ((W6_of_ne m ρ c main_arg7 (by decide)).trans ((pass2_main_arg7 (W4 m ρ c)).trans ((W4_of_ne m ρ c main_arg7 (by decide)).trans ((pass1_main_arg7 (W2 m ρ c)).trans ((W2_of_ne m ρ c main_arg7 (by decide)).trans ((pass0_main_arg7 (W0 m ρ c)).trans rfl))))))
theorem at7_main_arg8 : W7 m ρ c (Proc.devRef .tc main_arg8) = m ((c : Thread nD τ).loc main_arg8) :=
  ((W7_of_ne m ρ c main_arg8 (by decide)).trans ((W6_of_ne m ρ c main_arg8 (by decide)).trans ((pass2_main_arg8 (W4 m ρ c)).trans ((W4_of_ne m ρ c main_arg8 (by decide)).trans ((pass1_main_arg8 (W2 m ρ c)).trans ((W2_of_ne m ρ c main_arg8 (by decide)).trans ((pass0_main_arg8 (W0 m ρ c)).trans rfl)))))))
theorem at8_main_arg9 : W8 m ρ c (Proc.devRef .tc main_arg9) = m ((c : Thread nD τ).loc main_arg9) :=
  ((pass4_main_arg9 (W7 m ρ c)).trans ((W7_of_ne m ρ c main_arg9 (by decide)).trans ((W6_of_ne m ρ c main_arg9 (by decide)).trans ((pass2_main_arg9 (W4 m ρ c)).trans ((W4_of_ne m ρ c main_arg9 (by decide)).trans ((pass1_main_arg9 (W2 m ρ c)).trans ((W2_of_ne m ρ c main_arg9 (by decide)).trans ((pass0_main_arg9 (W0 m ρ c)).trans rfl))))))))
theorem at9_main_arg10 : W9 m ρ c (Proc.devRef .tc main_arg10) = m ((c : Thread nD τ).loc main_arg10) :=
  ((W9_of_ne m ρ c main_arg10 (by decide)).trans ((pass4_main_arg10 (W7 m ρ c)).trans ((W7_of_ne m ρ c main_arg10 (by decide)).trans ((W6_of_ne m ρ c main_arg10 (by decide)).trans ((pass2_main_arg10 (W4 m ρ c)).trans ((W4_of_ne m ρ c main_arg10 (by decide)).trans ((pass1_main_arg10 (W2 m ρ c)).trans ((W2_of_ne m ρ c main_arg10 (by decide)).trans ((pass0_main_arg10 (W0 m ρ c)).trans rfl)))))))))
theorem at2_main_v1 : W2 m ρ c (Proc.devRef .tc main_v1) = edgeRow0 (m ((c : Thread nD τ).loc main_arg1)) :=
  ((W2_of_ne m ρ c main_v1 (by decide)).trans (edges_v1 (W0 m ρ c)))
theorem at2_main_v3 : W2 m ρ c (Proc.devRef .tc main_v3) = edgeRow1 (m ((c : Thread nD τ).loc main_arg1)) :=
  ((W2_of_ne m ρ c main_v3 (by decide)).trans (edges_v3 (W0 m ρ c)))
theorem at4_main_v1 : W4 m ρ c (Proc.devRef .tc main_v1) = edgeRow0 (m ((c : Thread nD τ).loc main_arg1)) :=
  ((W4_of_ne m ρ c main_v1 (by decide)).trans ((pass1_main_v1 (W2 m ρ c)).trans ((W2_of_ne m ρ c main_v1 (by decide)).trans (edges_v1 (W0 m ρ c)))))
theorem at4_main_v3 : W4 m ρ c (Proc.devRef .tc main_v3) = edgeRow1 (m ((c : Thread nD τ).loc main_arg1)) :=
  ((W4_of_ne m ρ c main_v3 (by decide)).trans ((pass1_main_v3 (W2 m ρ c)).trans ((W2_of_ne m ρ c main_v3 (by decide)).trans (edges_v3 (W0 m ρ c)))))
theorem at7_main_v5 : W7 m ρ c (Proc.devRef .tc main_v5) = edgeRow0 (m ((c : Thread nD τ).loc main_arg2)) :=
  ((W7_of_ne m ρ c main_v5 (by decide)).trans ((W6_of_ne m ρ c main_v5 (by decide)).trans ((pass2_main_v5 (W4 m ρ c)).trans ((W4_of_ne m ρ c main_v5 (by decide)).trans ((pass1_main_v5 (W2 m ρ c)).trans ((W2_of_ne m ρ c main_v5 (by decide)).trans (edges_v5 (W0 m ρ c))))))))
theorem at7_main_v7 : W7 m ρ c (Proc.devRef .tc main_v7) = edgeRow1 (m ((c : Thread nD τ).loc main_arg2)) :=
  ((W7_of_ne m ρ c main_v7 (by decide)).trans ((W6_of_ne m ρ c main_v7 (by decide)).trans ((pass2_main_v7 (W4 m ρ c)).trans ((W4_of_ne m ρ c main_v7 (by decide)).trans ((pass1_main_v7 (W2 m ρ c)).trans ((W2_of_ne m ρ c main_v7 (by decide)).trans (edges_v7 (W0 m ρ c))))))))
theorem at9_main_v5 : W9 m ρ c (Proc.devRef .tc main_v5) = edgeRow0 (m ((c : Thread nD τ).loc main_arg2)) :=
  ((W9_of_ne m ρ c main_v5 (by decide)).trans ((pass4_main_v5 (W7 m ρ c)).trans ((W7_of_ne m ρ c main_v5 (by decide)).trans ((W6_of_ne m ρ c main_v5 (by decide)).trans ((pass2_main_v5 (W4 m ρ c)).trans ((W4_of_ne m ρ c main_v5 (by decide)).trans ((pass1_main_v5 (W2 m ρ c)).trans ((W2_of_ne m ρ c main_v5 (by decide)).trans (edges_v5 (W0 m ρ c))))))))))
theorem at9_main_v7 : W9 m ρ c (Proc.devRef .tc main_v7) = edgeRow1 (m ((c : Thread nD τ).loc main_arg2)) :=
  ((W9_of_ne m ρ c main_v7 (by decide)).trans ((pass4_main_v7 (W7 m ρ c)).trans ((W7_of_ne m ρ c main_v7 (by decide)).trans ((W6_of_ne m ρ c main_v7 (by decide)).trans ((pass2_main_v7 (W4 m ρ c)).trans ((W4_of_ne m ρ c main_v7 (by decide)).trans ((pass1_main_v7 (W2 m ρ c)).trans ((W2_of_ne m ρ c main_v7 (by decide)).trans (edges_v7 (W0 m ρ c))))))))))

/-! ## The values along the way -/

/-- The features times the first weights. -/
def H1 : (⟨S50000x512, .f32⟩ : BufTy).Contents (Elt Ideal) :=
  Host.dotGeneral (F := Ideal) (φ₁ := .f32) (φ₂ := .f32) Cert.ReferenceIdeal.dot_S50000x512_S512x512_S50000x512_1_0_0_1_n_n none (m ((c : Thread nD τ).loc main_arg0)) (m ((c : Thread nD τ).loc main_arg3))
/-- Its normalised neighbourhood sum over the first edge list. -/
def A1 : (⟨S50000x512, .f32⟩ : BufTy).Contents (Elt Ideal) := aggregate512 (H1 m c) (edgeRow0 (m ((c : Thread nD τ).loc main_arg1))) (edgeRow1 (m ((c : Thread nD τ).loc main_arg1)))
/-- The first hidden layer times the second weights. -/
def H2 : (⟨S50000x256, .f32⟩ : BufTy).Contents (Elt Ideal) :=
  Host.dotGeneral (F := Ideal) (φ₁ := .f32) (φ₂ := .f32) Cert.ReferenceIdeal.dot_S50000x512_S512x256_S50000x256_1_0_0_1_n_n none (biasRelu512 (A1 m c) (m ((c : Thread nD τ).loc main_arg4))) (m ((c : Thread nD τ).loc main_arg5))
def A2 : (⟨S50000x256, .f32⟩ : BufTy).Contents (Elt Ideal) := aggregate256 (H2 m c) (edgeRow0 (m ((c : Thread nD τ).loc main_arg1))) (edgeRow1 (m ((c : Thread nD τ).loc main_arg1)))
/-- The first result. -/
def Z : (⟨S50000x256, .f32⟩ : BufTy).Contents (Elt Ideal) := biasRelu256 (A2 m c) (m ((c : Thread nD τ).loc main_arg6))
def H3 : (⟨S50000x512, .f32⟩ : BufTy).Contents (Elt Ideal) :=
  Host.dotGeneral (F := Ideal) (φ₁ := .f32) (φ₂ := .f32) Cert.ReferenceIdeal.dot_S50000x256_S256x512_S50000x512_1_0_0_1_n_n none (Z m c) (m ((c : Thread nD τ).loc main_arg7))
def A3 : (⟨S50000x512, .f32⟩ : BufTy).Contents (Elt Ideal) := aggregate512 (H3 m c) (edgeRow0 (m ((c : Thread nD τ).loc main_arg2))) (edgeRow1 (m ((c : Thread nD τ).loc main_arg2)))
def H4 : (⟨S50000x256, .f32⟩ : BufTy).Contents (Elt Ideal) :=
  Host.dotGeneral (F := Ideal) (φ₁ := .f32) (φ₂ := .f32) Cert.ReferenceIdeal.dot_S50000x512_S512x256_S50000x256_1_0_0_1_n_n none (biasRelu512 (A3 m c) (m ((c : Thread nD τ).loc main_arg8))) (m ((c : Thread nD τ).loc main_arg9))
def A4 : (⟨S50000x256, .f32⟩ : BufTy).Contents (Elt Ideal) := aggregate256 (H4 m c) (edgeRow0 (m ((c : Thread nD τ).loc main_arg2))) (edgeRow1 (m ((c : Thread nD τ).loc main_arg2)))
/-- The second result. -/
def ZG : (⟨S50000x256, .f32⟩ : BufTy).Contents (Elt Ideal) := biasRelu256 (A4 m c) (m ((c : Thread nD τ).loc main_arg10))

theorem Z_eq : Z m c = encoder1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := rfl
theorem ZG_eq : ZG m c = encoder2 (Z m c) (m ((c : Thread nD τ).loc main_arg2)) (m ((c : Thread nD τ).loc main_arg7)) (m ((c : Thread nD τ).loc main_arg8)) (m ((c : Thread nD τ).loc main_arg9)) (m ((c : Thread nD τ).loc main_arg10)) := rfl

/-- A bias vector laid out as a one-row matrix by a reshape is the vector broadcast along a new leading axis. -/
theorem row512 (b : (⟨S512, .f32⟩ : BufTy).Contents (Elt Ideal)) :
    shapeCast S1x512 b shapeCasts_S512_S1x512 = broadcastInDim S1x512 ![1] Cert.ReferenceIdeal.Gen.bcast_S512_S1x512_1 b :=
  Cert.SameOps.castRow_eq_bcast b shapeCasts_S512_S1x512 Cert.ReferenceIdeal.Gen.bcast_S512_S1x512_1
theorem row256 (b : (⟨S256, .f32⟩ : BufTy).Contents (Elt Ideal)) :
    shapeCast S1x256 b shapeCasts_S256_S1x256 = broadcastInDim S1x256 ![1] Cert.ReferenceIdeal.Gen.bcast_S256_S1x256_1 b :=
  Cert.SameOps.castRow_eq_bcast b shapeCasts_S256_S1x256 Cert.ReferenceIdeal.Gen.bcast_S256_S1x256_1

variable (hfin0 : ∀ (V : (c : Dev nD) → (b : Ref sig .tc) → Buf (Elt Ideal) ((c : Thread nD τ).loc b)) (c : Dev nD),
    (dat0 (F := Ideal) V c).arrAt 2 cfg0.N
      = Host.dotGeneral (F := Ideal) (φ₁ := .f32) (φ₂ := .f32) Cert.ReferenceIdeal.dot_S50000x512_S512x512_S50000x512_1_0_0_1_n_n none
          (V c main_arg0 : FVec Ideal S50000x512 .f32) (V c main_arg3 : FVec Ideal S512x512 .f32))
variable (hfin1 : ∀ (V : (c : Dev nD) → (b : Ref sig .tc) → Buf (Elt Ideal) ((c : Thread nD τ).loc b)) (c : Dev nD),
    (dat1 (F := Ideal) V c).arrAt 3 cfg1.N
      = Host.dotGeneral (F := Ideal) (φ₁ := .f32) (φ₂ := .f32) Cert.ReferenceIdeal.dot_S50000x512_S512x256_S50000x256_1_0_0_1_n_n none
          (maximumf (addf (V c main_v48 : FVec Ideal S50000x512 .f32)
              (broadcastInDim S50000x512 ![0, 1] Cert.ReferenceIdeal.Gen.bcast_S1x512_S50000x512_0_1 (V c main_v49 : FVec Ideal S1x512 .f32)))
            (broadcastInDim S50000x512 ![] bcast_S_S50000x512 (constant (F := Ideal) S_ .f32 0x00000000#32)))
          (V c main_arg5 : FVec Ideal S512x256 .f32))
variable (hfin2 : ∀ (V : (c : Dev nD) → (b : Ref sig .tc) → Buf (Elt Ideal) ((c : Thread nD τ).loc b)) (c : Dev nD),
    (dat2 (F := Ideal) V c).arrAt 2 cfg2.N
      = maximumf (addf (V c main_v90 : FVec Ideal S50000x256 .f32)
            (broadcastInDim S50000x256 ![0, 1] Cert.ReferenceIdeal.Gen.bcast_S1x256_S50000x256_0_1 (V c main_v91 : FVec Ideal S1x256 .f32)))
          (broadcastInDim S50000x256 ![] bcast_S_S50000x256 (constant (F := Ideal) S_ .f32 0x00000000#32)))
variable (hfin3 : ∀ (V : (c : Dev nD) → (b : Ref sig .tc) → Buf (Elt Ideal) ((c : Thread nD τ).loc b)) (c : Dev nD),
    (dat3 (F := Ideal) V c).arrAt 2 cfg3.N
      = Host.dotGeneral (F := Ideal) (φ₁ := .f32) (φ₂ := .f32) Cert.ReferenceIdeal.dot_S50000x256_S256x512_S50000x512_1_0_0_1_n_n none
          (V c main_v92 : FVec Ideal S50000x256 .f32) (V c main_arg7 : FVec Ideal S256x512 .f32))
variable (hfin4 : ∀ (V : (c : Dev nD) → (b : Ref sig .tc) → Buf (Elt Ideal) ((c : Thread nD τ).loc b)) (c : Dev nD),
    (dat4 (F := Ideal) V c).arrAt 3 cfg4.N
      = Host.dotGeneral (F := Ideal) (φ₁ := .f32) (φ₂ := .f32) Cert.ReferenceIdeal.dot_S50000x512_S512x256_S50000x256_1_0_0_1_n_n none
          (maximumf (addf (V c main_v133 : FVec Ideal S50000x512 .f32)
              (broadcastInDim S50000x512 ![0, 1] Cert.ReferenceIdeal.Gen.bcast_S1x512_S50000x512_0_1 (V c main_v134 : FVec Ideal S1x512 .f32)))
            (broadcastInDim S50000x512 ![] bcast_S_S50000x512 (constant (F := Ideal) S_ .f32 0x00000000#32)))
          (V c main_arg9 : FVec Ideal S512x256 .f32))
variable (hfin5 : ∀ (V : (c : Dev nD) → (b : Ref sig .tc) → Buf (Elt Ideal) ((c : Thread nD τ).loc b)) (c : Dev nD),
    (dat5 (F := Ideal) V c).arrAt 2 cfg5.N
      = maximumf (addf (V c main_v175 : FVec Ideal S50000x256 .f32)
            (broadcastInDim S50000x256 ![0, 1] Cert.ReferenceIdeal.Gen.bcast_S1x256_S50000x256_0_1 (V c main_v176 : FVec Ideal S1x256 .f32)))
          (broadcastInDim S50000x256 ![] bcast_S_S50000x256 (constant (F := Ideal) S_ .f32 0x00000000#32)))

include hfin0 in
theorem v8_eq : W2 m ρ c (Proc.devRef .tc main_v8) = H1 m c := by
  have e := (W2_arr m ρ c 2).trans (hfin0 (V1 m ρ) c)
  dsimp only [V1] at e
  rw [at1_main_arg0 m ρ c, at1_main_arg3 m ρ c] at e
  exact e

include hfin0 in
theorem v48_eq : W3 m ρ c (Proc.devRef .tc main_v48) = A1 m c := by
  have e := sum1 (W2 m ρ c)
  rw [v8_eq m ρ c hfin0, at2_main_v1 m ρ c, at2_main_v3 m ρ c] at e
  exact e

theorem v49_eq : W3 m ρ c (Proc.devRef .tc main_v49)
    = broadcastInDim S1x512 ![1] Cert.ReferenceIdeal.Gen.bcast_S512_S1x512_1 (m ((c : Thread nD τ).loc main_arg4)) := by
  have e := bias1 (W2 m ρ c)
  rw [at2_main_arg4 m ρ c, row512] at e
  exact e

include hfin0 hfin1 in
theorem v50_eq : W4 m ρ c (Proc.devRef .tc main_v50) = H2 m c := by
  have e := (W4_arr m ρ c 3).trans (hfin1 (V3 m ρ) c)
  dsimp only [V3] at e
  rw [v48_eq m ρ c hfin0, v49_eq m ρ c, at3_main_arg5 m ρ c] at e
  exact e

include hfin0 hfin1 in
theorem v90_eq : W5 m ρ c (Proc.devRef .tc main_v90) = A2 m c := by
  have e := sum2 (W4 m ρ c)
  rw [v50_eq m ρ c hfin0 hfin1, at4_main_v1 m ρ c, at4_main_v3 m ρ c] at e
  exact e

theorem v91_eq : W5 m ρ c (Proc.devRef .tc main_v91)
    = broadcastInDim S1x256 ![1] Cert.ReferenceIdeal.Gen.bcast_S256_S1x256_1 (m ((c : Thread nD τ).loc main_arg6)) := by
  have e := bias2 (W4 m ρ c)
  rw [at4_main_arg6 m ρ c, row256] at e
  exact e

include hfin0 hfin1 hfin2 in
theorem v92_eq : W6 m ρ c (Proc.devRef .tc main_v92) = Z m c := by
  have e := (W6_arr m ρ c 2).trans (hfin2 (V5 m ρ) c)
  dsimp only [V5] at e
  rw [v90_eq m ρ c hfin0 hfin1, v91_eq m ρ c] at e
  exact e

include hfin0 hfin1 hfin2 hfin3 in
theorem v93_eq : W7 m ρ c (Proc.devRef .tc main_v93) = H3 m c := by
  have e := (W7_arr m ρ c 2).trans (hfin3 (V6 m ρ) c)
  dsimp only [V6] at e
  rw [v92_eq m ρ c hfin0 hfin1 hfin2, at6_main_arg7 m ρ c] at e
  exact e

include hfin0 hfin1 hfin2 hfin3 in
theorem v133_eq : W8 m ρ c (Proc.devRef .tc main_v133) = A3 m c := by
  have e := sum4 (W7 m ρ c)
  rw [v93_eq m ρ c hfin0 hfin1 hfin2 hfin3, at7_main_v5 m ρ c, at7_main_v7 m ρ c] at e
  exact e

theorem v134_eq : W8 m ρ c (Proc.devRef .tc main_v134)
    = broadcastInDim S1x512 ![1] Cert.ReferenceIdeal.Gen.bcast_S512_S1x512_1 (m ((c : Thread nD τ).loc main_arg8)) := by
  have e := bias4 (W7 m ρ c)
  rw [at7_main_arg8 m ρ c, row512] at e
  exact e

include hfin0 hfin1 hfin2 hfin3 hfin4 in
theorem v135_eq : W9 m ρ c (Proc.devRef .tc main_v135) = H4 m c := by
  have e := (W9_arr m ρ c 3).trans (hfin4 (V8 m ρ) c)
  dsimp only [V8] at e
  rw [v133_eq m ρ c hfin0 hfin1 hfin2 hfin3, v134_eq m ρ c, at8_main_arg9 m ρ c] at e
  exact e

include hfin0 hfin1 hfin2 hfin3 hfin4 in
theorem v175_eq : W10 m ρ c (Proc.devRef .tc main_v175) = A4 m c := by
  have e := sum5 (W9 m ρ c)
  rw [v135_eq m ρ c hfin0 hfin1 hfin2 hfin3 hfin4, at9_main_v5 m ρ c, at9_main_v7 m ρ c] at e
  exact e

theorem v176_eq : W10 m ρ c (Proc.devRef .tc main_v176)
    = broadcastInDim S1x256 ![1] Cert.ReferenceIdeal.Gen.bcast_S256_S1x256_1 (m ((c : Thread nD τ).loc main_arg10)) := by
  have e := bias5 (W9 m ρ c)
  rw [at9_main_arg10 m ρ c, row256] at e
  exact e

include hfin0 hfin1 hfin2 hfin3 hfin4 hfin5 in
/-- The second result buffer ends at the second encoder of the first result and the last five arguments. -/
theorem v177_eq : W11 m ρ c (Proc.devRef .tc main_v177) = ZG m c := by
  have e := (W11_arr m ρ c 2).trans (hfin5 (V10 m ρ) c)
  dsimp only [V10] at e
  rw [v175_eq m ρ c hfin0 hfin1 hfin2 hfin3 hfin4, v176_eq m ρ c] at e
  exact e

include hfin0 hfin1 hfin2 in
/-- The first result buffer, written by the third region, read by the fourth as an input and written by nothing after,
    ends at the first encoder. -/
theorem v92_end : W11 m ρ c (Proc.devRef .tc main_v92) = Z m c :=
  (W11_of_ne m ρ c main_v92 (by decide)).trans ((pass5_main_v92 (W9 m ρ c)).trans ((W9_of_ne m ρ c main_v92 (by decide)).trans ((pass4_main_v92 (W7 m ρ c)).trans
    (((W7_arr m ρ c 0).trans (((dat3 (V6 m ρ) c).arrAt_in 0 rfl _).trans (A_eq3 (V6 m ρ) c 0))).trans (v92_eq m ρ c hfin0 hfin1 hfin2)))))

end Cert.KernelIdeal.Chain

end
-- ==== Proof.RefSpec.lean ====
/-
  The reference program's two results are the two encoders of its argument arrays.

  The reference is one line of host operations; its run gives each result as the composition of the operations that
  lead to it. Grouped by layer, that composition is the first encoder of the features, the first edge list and the
  first four parameters, and the second encoder of that output, the second edge list and the last four parameters.
  The layers are spelled here over the reference's own shape and dimension records; they are the same functions as
  the kernel's, whose records carry the same numbers.
-/
import proofs.«176306_j88407606821209_1_alg».proof.Proof.Gen.ReferenceIdeal.Run
import proofs.«176306_j88407606821209_1_alg».proof.Proof.Spec

set_option maxRecDepth 16384

noncomputable section

namespace Cert.ReferenceIdeal.Layers

open Idealize.ShloMosaic Cert.ReferenceIdeal Cert.ReferenceIdeal.Gen

variable {F : FTy → Type} [FloatOps F]

/-- Row 0 of an edge array [2, E] as a vector of E node numbers (the sources). -/
def edgeRow0 (ei : (⟨S2x400000, .i32⟩ : BufTy).Contents (Elt F)) : (⟨S400000, .i32⟩ : BufTy).Contents (Elt F) :=
  shapeCast S400000 (extractStridedSlice S1x400000 ![0, 0] ei slices_S2x400000_S1x400000_0_0) shapeCasts_S1x400000_S400000

/-- Row 1 of an edge array [2, E] as a vector of E node numbers (the destinations). -/
def edgeRow1 (ei : (⟨S2x400000, .i32⟩ : BufTy).Contents (Elt F)) : (⟨S400000, .i32⟩ : BufTy).Contents (Elt F) :=
  shapeCast S400000 (extractStridedSlice S1x400000 ![1, 0] ei slices_S2x400000_S1x400000_1_0) shapeCasts_S1x400000_S400000

/-- Node numbers as a column of gather positions: a negative number counts from the end (the extent 50000 is added). -/
def wrapCol (e : (⟨S400000, .i32⟩ : BufTy).Contents (Elt F)) : (⟨S400000x1, .i32⟩ : BufTy).Contents (Elt F) :=
  broadcastInDim S400000x1 ![0] bcast_S400000_S400000x1_0
    (select (cmpi .slt e (broadcastInDim S400000 ![] bcast_S_S400000 (constantI S_ 32 0#32)))
      (addi e (broadcastInDim S400000 ![] bcast_S_S400000 (constantI S_ 32 50000#32))) e)

/-- Node numbers as a column of scatter positions, as they are. -/
def plainCol (e : (⟨S400000, .i32⟩ : BufTy).Contents (Elt F)) : (⟨S400000x1, .i32⟩ : BufTy).Contents (Elt F) :=
  broadcastInDim S400000x1 ![0] bcast_S400000_S400000x1_0 e

/-- The inverse square root of each node's degree: one plus the number of edges that end at the node. -/
def invSqrtDeg (dst : (⟨S400000, .i32⟩ : BufTy).Contents (Elt F)) : (⟨S50000, .f32⟩ : BufTy).Contents (Elt F) :=
  Host.rsqrt (addf
    (Host.scatterAdd scatter_S50000_S400000x1_S400000_n_0_0_1 (broadcastInDim S50000 ![] bcast_S_S50000 (constant S_ .f32 0x00000000#32))
      (plainCol dst) (broadcastInDim S400000 ![] bcast_S_S400000 (constant S_ .f32 0x3F800000#32)))
    (broadcastInDim S50000 ![] bcast_S_S50000 (constant S_ .f32 0x3F800000#32)))

/-- The weight of each edge: the product of the two end nodes' inverse square root degrees. -/
def edgeCoef (src dst : (⟨S400000, .i32⟩ : BufTy).Contents (Elt F)) : (⟨S400000, .f32⟩ : BufTy).Contents (Elt F) :=
  mulf (Host.gather gather_S50000_S400000x1_S400000_n_0_n_n_0_1_1 (invSqrtDeg dst) (wrapCol src))
    (Host.gather gather_S50000_S400000x1_S400000_n_0_n_n_0_1_1 (invSqrtDeg dst) (wrapCol dst))

/-- The normalised neighbourhood sum of 512 features per node: the weighted rows of the sources added into the
    destinations' rows, plus each node's own row over its degree. -/
def aggregate512 (h : (⟨S50000x512, .f32⟩ : BufTy).Contents (Elt F)) (src dst : (⟨S400000, .i32⟩ : BufTy).Contents (Elt F)) :
    (⟨S50000x512, .f32⟩ : BufTy).Contents (Elt F) :=
  addf
    (Host.scatterAdd scatter_S50000x512_S400000x1_S400000x512_1_0_0_1
      (broadcastInDim S50000x512 ![] bcast_S_S50000x512 (constant S_ .f32 0x00000000#32)) (plainCol dst)
      (mulf (Host.gather gather_S50000x512_S400000x1_S400000x512_1_0_n_n_0_1_1512 h (wrapCol src))
        (broadcastInDim S400000x512 ![0, 1] bcast_S400000x1_S400000x512_0_1
          (broadcastInDim S400000x1 ![0] bcast_S400000_S400000x1_0 (edgeCoef src dst)))))
    (mulf h (broadcastInDim S50000x512 ![0, 1] bcast_S50000x1_S50000x512_0_1
      (broadcastInDim S50000x1 ![0] bcast_S50000_S50000x1_0 (mulf (invSqrtDeg dst) (invSqrtDeg dst)))))

/-- The same sum of 256 features per node. -/
def aggregate256 (h : (⟨S50000x256, .f32⟩ : BufTy).Contents (Elt F)) (src dst : (⟨S400000, .i32⟩ : BufTy).Contents (Elt F)) :
    (⟨S50000x256, .f32⟩ : BufTy).Contents (Elt F) :=
  addf
    (Host.scatterAdd scatter_S50000x256_S400000x1_S400000x256_1_0_0_1
      (broadcastInDim S50000x256 ![] bcast_S_S50000x256 (constant S_ .f32 0x00000000#32)) (plainCol dst)
      (mulf (Host.gather gather_S50000x256_S400000x1_S400000x256_1_0_n_n_0_1_1256 h (wrapCol src))
        (broadcastInDim S400000x256 ![0, 1] bcast_S400000x1_S400000x256_0_1
          (broadcastInDim S400000x1 ![0] bcast_S400000_S400000x1_0 (edgeCoef src dst)))))
    (mulf h (broadcastInDim S50000x256 ![0, 1] bcast_S50000x1_S50000x256_0_1
      (broadcastInDim S50000x1 ![0] bcast_S50000_S50000x1_0 (mulf (invSqrtDeg dst) (invSqrtDeg dst)))))

/-- A bias vector added to every row, then the positive part, 512 features per node. -/
def biasRelu512 (a : (⟨S50000x512, .f32⟩ : BufTy).Contents (Elt F)) (b : (⟨S512, .f32⟩ : BufTy).Contents (Elt F)) :
    (⟨S50000x512, .f32⟩ : BufTy).Contents (Elt F) :=
  maximumf
    (addf a (broadcastInDim S50000x512 ![0, 1] Cert.ReferenceIdeal.Gen.bcast_S1x512_S50000x512_0_1
      (broadcastInDim S1x512 ![1] Cert.ReferenceIdeal.Gen.bcast_S512_S1x512_1 b)))
    (broadcastInDim S50000x512 ![] bcast_S_S50000x512 (constant S_ .f32 0x00000000#32))

/-- The same with 256 features per node. -/
def biasRelu256 (a : (⟨S50000x256, .f32⟩ : BufTy).Contents (Elt F)) (b : (⟨S256, .f32⟩ : BufTy).Contents (Elt F)) :
    (⟨S50000x256, .f32⟩ : BufTy).Contents (Elt F) :=
  maximumf
    (addf a (broadcastInDim S50000x256 ![0, 1] Cert.ReferenceIdeal.Gen.bcast_S1x256_S50000x256_0_1
      (broadcastInDim S1x256 ![1] Cert.ReferenceIdeal.Gen.bcast_S256_S1x256_1 b)))
    (broadcastInDim S50000x256 ![] bcast_S_S50000x256 (constant S_ .f32 0x00000000#32))

/-- The first encoder's output: from 512 input features, a graph convolution to 512 features and one to 256, each a
    linear map, the normalised neighbourhood sum, a bias and the positive part. -/
def encoder1 (x : (⟨S50000x512, .f32⟩ : BufTy).Contents (Elt F)) (ei : (⟨S2x400000, .i32⟩ : BufTy).Contents (Elt F))
    (w1 : (⟨S512x512, .f32⟩ : BufTy).Contents (Elt F)) (b1 : (⟨S512, .f32⟩ : BufTy).Contents (Elt F))
    (w2 : (⟨S512x256, .f32⟩ : BufTy).Contents (Elt F)) (b2 : (⟨S256, .f32⟩ : BufTy).Contents (Elt F)) :
    (⟨S50000x256, .f32⟩ : BufTy).Contents (Elt F) :=
  biasRelu256
    (aggregate256
      (Host.dotGeneral (φ₁ := .f32) (φ₂ := .f32) Cert.ReferenceIdeal.dot_S50000x512_S512x256_S50000x256_1_0_0_1_n_n none
        (biasRelu512
          (aggregate512 (Host.dotGeneral (φ₁ := .f32) (φ₂ := .f32) Cert.ReferenceIdeal.dot_S50000x512_S512x512_S50000x512_1_0_0_1_n_n none x w1)
            (edgeRow0 ei) (edgeRow1 ei))
          b1)
        w2)
      (edgeRow0 ei) (edgeRow1 ei))
    b2

/-- The second encoder's output: from the first encoder's 256 features, a graph convolution to 512 features and one
    to 256, over the second edge list. -/
def encoder2 (z : (⟨S50000x256, .f32⟩ : BufTy).Contents (Elt F)) (ei : (⟨S2x400000, .i32⟩ : BufTy).Contents (Elt F))
    (w3 : (⟨S256x512, .f32⟩ : BufTy).Contents (Elt F)) (b3 : (⟨S512, .f32⟩ : BufTy).Contents (Elt F))
    (w4 : (⟨S512x256, .f32⟩ : BufTy).Contents (Elt F)) (b4 : (⟨S256, .f32⟩ : BufTy).Contents (Elt F)) :
    (⟨S50000x256, .f32⟩ : BufTy).Contents (Elt F) :=
  biasRelu256
    (aggregate256
      (Host.dotGeneral (φ₁ := .f32) (φ₂ := .f32) Cert.ReferenceIdeal.dot_S50000x512_S512x256_S50000x256_1_0_0_1_n_n none
        (biasRelu512
          (aggregate512 (Host.dotGeneral (φ₁ := .f32) (φ₂ := .f32) Cert.ReferenceIdeal.dot_S50000x256_S256x512_S50000x512_1_0_0_1_n_n none z w3)
            (edgeRow0 ei) (edgeRow1 ei))
          b3)
        w4)
      (edgeRow0 ei) (edgeRow1 ei))
    b4

open Idealize.ShloMosaic.TcCoe Idealize.SL.Sem

/-- The first result's composed term is the first encoder of the arguments. -/
theorem res0_eq (m : (ℓ : Loc nD τ sig) → Buf (Elt F) ℓ) (c : Dev nD) :
    Cert.ReferenceIdeal.Value.res_main_v93 m c = encoder1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v93; rfl

/-- The second result's composed term is the second encoder of the first encoder's output and the remaining arguments. -/
theorem res1_eq (m : (ℓ : Loc nD τ sig) → Buf (Elt F) ℓ) (c : Dev nD) :
    Cert.ReferenceIdeal.Value.res_main_v187 m c
      = encoder2 (encoder1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v187; rfl

/-- The two spellings of the encoders, over the reference's records and over the kernel's, are the same functions. -/
theorem encoder1_eq : @encoder1 F _ = @Cert.KernelIdeal.Layers.encoder1 F _ := rfl
theorem encoder2_eq : @encoder2 F _ = @Cert.KernelIdeal.Layers.encoder2 F _ := rfl

end Cert.ReferenceIdeal.Layers

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.LibPlainDot.lean ====
/-
  Plain matrix products on the host, read at an entry.

  Dimension numbers of a product [N, K] × [K, M] → [N, M] are PLAIN when they contract the left operand's axis 1 against
  the right operand's axis 0, keep the left operand's axis 0 and the right operand's axis 1, and have no batch axis.
  For such dimension numbers the contraction has one axis of extent K, the operands are read at (p, k) and (k, q),
  and the host's product at entry (p, q) is the sum over k of l (p, k) · r (k, q) on the extended reals.
-/
import Idealize.ShloMosaic.PureOps.Ideal
import Idealize.ShloMosaic.PureOps.Ideal.Laws
import Idealize.ShloMosaic.Lib.ValueIdx
import proofs.«176306_j88407606821209_1_alg».proof.Proof.LibDotPlain

noncomputable section

open scoped BigOperators

namespace Cert.LibPlainDot

open Idealize.ShloMosaic Idealize.ShloMosaic.ValueIdx

variable {N K M : Nat} (D : DotDims ⟨2, ![N, K]⟩ ⟨2, ![K, M]⟩ ⟨2, ![N, M]⟩)

/-- What makes dimension numbers plain. -/
structure Plain : Prop where
  lc : D.lhsContracting = [1]
  rc : D.rhsContracting = [0]
  ln : D.lhsNonContracting = [0]
  rn : D.rhsNonContracting = [1]
  lb : D.lhsBatch = []
  rb : D.rhsBatch = []

variable {D}

theorem Plain.rank (h : Plain D) : D.contr.rank = 1 := by rw [D.rank_contr, h.lc]; rfl

theorem Plain.size (h : Plain D) : D.contr.size ⟨0, by rw [h.rank]; exact Nat.one_pos⟩ = K := by
  have hp : 0 < D.lhsContracting.length := by rw [h.lc]; exact Nat.one_pos
  rw [D.size_contr 0 hp]
  have : D.lhsContracting[0] = (1 : Fin 2) := by simp [h.lc]
  rw [this]; rfl

theorem Plain.l0 (h : Plain D) (i : (⟨2, ![N, M]⟩ : Shape).Idx) (k : D.contr.Idx) : (D.lhsIdx i k 0).val = (i 0).val := by
  unfold DotDims.lhsIdx
  simp only [h.lb, h.ln, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln])

theorem Plain.l1 (h : Plain D) (i : (⟨2, ![N, M]⟩ : Shape).Idx) (k : D.contr.Idx) :
    (D.lhsIdx i k 1).val = (k ⟨0, by rw [h.rank]; exact Nat.one_pos⟩).val := D.lhsIdx_val_of_single h.lc i k

theorem Plain.r0 (h : Plain D) (i : (⟨2, ![N, M]⟩ : Shape).Idx) (k : D.contr.Idx) :
    (D.rhsIdx i k 0).val = (k ⟨0, by rw [h.rank]; exact Nat.one_pos⟩).val := D.rhsIdx_val_of_single h.rc i k

theorem Plain.r1 (h : Plain D) (i : (⟨2, ![N, M]⟩ : Shape).Idx) (k : D.contr.Idx) : (D.rhsIdx i k 1).val = (i 1).val := by
  unfold DotDims.rhsIdx
  have h10 : ¬ ((1 : Fin 2) ∈ ([] : List (Fin 2))) := List.not_mem_nil
  simp only [h.rb, h.rn, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln, h.rn])

/-- The host's plain product at entry (p, q). -/
theorem hostDot_apply (h : Plain D) {φ₁ φ₂ : FTy} (prec : Option ContractPrecision) (l : FVec Ideal ⟨2, ![N, K]⟩ φ₁)
    (r : FVec Ideal ⟨2, ![K, M]⟩ φ₂) (p : Fin N) (q : Fin M) :
    Host.dotGeneral D prec l r (ix2 p q) = ∑ k : Fin K, l (ix2 p k) * r (ix2 k q) := by
  simp only [Host.dotGeneral]
  rw [Ideal.dotGeneral_apply]
  exact Cert.LibDotPlain.sum_contr_plain D h.rank h.size h.l0 h.l1 h.r0 h.r1 l r p q

/-- A matrix-unit plain product into a zero accumulator at entry (p, q). -/
theorem matmul_zero_apply (h : Plain D) {φ₁ φ₂ : FTy} (prec : Option ContractPrecision) (l : FVec Ideal ⟨2, ![N, K]⟩ φ₁)
    (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  Cert.LibDotPlain.matmul_zero_plain D h.rank h.size h.l0 h.l1 h.r0 h.r1 prec l r p q

end Cert.LibPlainDot

end
-- ==== Proof.LibLinearEntry.lean ====
/-
  A biased, rectified linear layer read at one entry.

  Two spellings of one layer: a block of rows computed on the matrix unit (the operands narrowed to bf16, a product into a
  zero accumulator) and the whole array computed by a plain host product. At the extended reals a change of format is the
  identity, so both read, at entry (p, q), the sum over the contracted coordinate k of
  max (x (p, k) + b (0, k)) 0 · w (k, q); without the rectifier, of (x (p, k) + b (0, k)) · w (k, q).
  The last lemmas compare a block with the whole array: when row p of the block is row P of the array and the
  bias row and the weights are the array's, entry (p, q) of the block is entry (P, q) of the array.
-/
import Idealize.ShloMosaic.PureOps.Ideal
import Idealize.ShloMosaic.PureOps.Ideal.Laws
import Idealize.ShloMosaic.Lib.ValueIdx
import Idealize.ShloMosaic.Lib.Pipeline.Value
import proofs.«176306_j88407606821209_1_alg».proof.Proof.LibPlainDot

noncomputable section

open scoped BigOperators

namespace Cert.LinearEntry

open Idealize.ShloMosaic Idealize.ShloMosaic.ValueIdx Cert.LibPlainDot

variable {n N K M : Nat}

/-- A bias row broadcast down the rows, read at (p, k), is the row's entry k. -/
theorem biasRow_apply (b : (⟨2, ![1, K]⟩ : Shape).Idx → EReal)
    (hbc : (⟨2, ![1, K]⟩ : Shape).Broadcasts ⟨2, ![n, K]⟩) (p : Fin n) (k : Fin K) :
    broadcastTo ⟨2, ![n, K]⟩ b hbc (ix2 p k) = b (ix2 0 k) :=
  broadcastTo_apply b hbc (ix2 p k) (ix2 0 k) (fun a => by
    match a with
    | ⟨0, _⟩ => rfl
    | ⟨1, _⟩ =>
      show k.val = if K = 1 then 0 else k.val
      have hk : k.val < K := k.isLt
      split_ifs with e
      · omega
      · rfl)

/-- The host's broadcast of the bias row along axis 0, read at (P, k), is the row's entry k. -/
theorem biasRowHost_apply (B : (⟨2, ![1, K]⟩ : Shape).Idx → EReal)
    (hb : (⟨2, ![1, K]⟩ : Shape).BroadcastsInDim ⟨2, ![N, K]⟩ ![0, 1]) (P : Fin N) (k : Fin K) :
    broadcastInDim ⟨2, ![N, K]⟩ ![0, 1] hb B (ix2 P k) = B (ix2 0 k) :=
  broadcastInDim_apply ![0, 1] hb B (ix2 P k) (ix2 0 k) (fun a => by
    match a with
    | ⟨0, _⟩ => rfl
    | ⟨1, _⟩ =>
      show k.val = if K = 1 then 0 else k.val
      have hk : k.val < K := k.isLt
      split_ifs with e
      · omega
      · rfl)

/-- A block of the rectified layer on the matrix unit, at entry (p, q). -/
theorem blockRelu_apply (D : DotDims ⟨2, ![n, K]⟩ ⟨2, ![K, M]⟩ ⟨2, ![n, M]⟩) (h : Plain D)
    (x : FVec Ideal ⟨2, ![n, K]⟩ .f32) (b : FVec Ideal ⟨2, ![1, K]⟩ .f32) (w : FVec Ideal ⟨2, ![K, M]⟩ .f32)
    (hx : (⟨2, ![n, K]⟩ : Shape).ShapeCasts ⟨2, ![n, K]⟩) (hb : (⟨2, ![1, K]⟩ : Shape).ShapeCasts ⟨2, ![1, K]⟩)
    (hbc : (⟨2, ![1, K]⟩ : Shape).Broadcasts ⟨2, ![n, K]⟩) (ht : FTy.bf16.bits < FTy.f32.bits) (p : Fin n) (q : Fin M) :
    matmul D none
        (truncf .bf16 (maximumf (addf (shapeCast ⟨2, ![n, K]⟩ x hx) (broadcastTo ⟨2, ![n, K]⟩ (shapeCast ⟨2, ![1, K]⟩ b hb) hbc))
          (broadcast ⟨2, ![n, K]⟩ (Scalar.ofBits (F := Ideal) .f32 0x00000000#32))) ht)
        (truncf .bf16 w ht) (constant ⟨2, ![n, M]⟩ .f32 0x00000000#32) (ix2 p q)
      = ∑ k : Fin K, max (x (ix2 p k) + b (ix2 0 k)) 0 * w (ix2 k q) := by
  refine (matmul_zero_apply h none _ _ p q).trans ?_
  refine Finset.sum_congr rfl fun k _ => ?_
  rw [truncf_apply, truncf_apply, maximumf_apply, addf_apply, broadcast_apply, shapeCast_self, shapeCast_self,
    biasRow_apply b hbc p k]
  show max _ (Ideal.ofBits .f32 0x00000000#32) * _ = _
  rw [Ideal.ofBits_zero_f32]

/-- A block of the layer without a rectifier on the matrix unit, at entry (p, q). -/
theorem blockLinear_apply (D : DotDims ⟨2, ![n, K]⟩ ⟨2, ![K, M]⟩ ⟨2, ![n, M]⟩) (h : Plain D)
    (x : FVec Ideal ⟨2, ![n, K]⟩ .f32) (b : FVec Ideal ⟨2, ![1, K]⟩ .f32) (w : FVec Ideal ⟨2, ![K, M]⟩ .f32)
    (hb : (⟨2, ![1, K]⟩ : Shape).ShapeCasts ⟨2, ![1, K]⟩)
    (hbc : (⟨2, ![1, K]⟩ : Shape).Broadcasts ⟨2, ![n, K]⟩) (ht : FTy.bf16.bits < FTy.f32.bits) (p : Fin n) (q : Fin M) :
    matmul D none
        (truncf .bf16 (addf x (broadcastTo ⟨2, ![n, K]⟩ (shapeCast ⟨2, ![1, K]⟩ b hb) hbc)) ht)
        (truncf .bf16 w ht) (constant ⟨2, ![n, M]⟩ .f32 0x00000000#32) (ix2 p q)
      = ∑ k : Fin K, (x (ix2 p k) + b (ix2 0 k)) * w (ix2 k q) := by
  refine (matmul_zero_apply h none _ _ p q).trans ?_
  refine Finset.sum_congr rfl fun k _ => ?_
  rw [truncf_apply, truncf_apply, addf_apply, shapeCast_self, biasRow_apply b hbc p k]

/-- The host's rectified layer, at entry (P, q). -/
theorem hostRelu_apply (D : DotDims ⟨2, ![N, K]⟩ ⟨2, ![K, M]⟩ ⟨2, ![N, M]⟩) (h : Plain D)
    (X : FVec Ideal ⟨2, ![N, K]⟩ .f32) (B : FVec Ideal ⟨2, ![1, K]⟩ .f32) (W : FVec Ideal ⟨2, ![K, M]⟩ .f32)
    (hb : (⟨2, ![1, K]⟩ : Shape).BroadcastsInDim ⟨2, ![N, K]⟩ ![0, 1])
    (hz : (⟨0, ![]⟩ : Shape).BroadcastsInDim ⟨2, ![N, K]⟩ ![]) (P : Fin N) (q : Fin M) :
    Host.dotGeneral (F := Ideal) D none
        (maximumf (addf X (broadcastInDim ⟨2, ![N, K]⟩ ![0, 1] hb B))
          (broadcastInDim ⟨2, ![N, K]⟩ ![] hz (constant (F := Ideal) ⟨0, ![]⟩ .f32 0x00000000#32)))
        W (ix2 P q)
      = ∑ k : Fin K, max (X (ix2 P k) + B (ix2 0 k)) 0 * W (ix2 k q) := by
  refine (hostDot_apply h none _ _ P q).trans ?_
  refine Finset.sum_congr rfl fun k _ => ?_
  rw [maximumf_apply, addf_apply, biasRowHost_apply B hb P k]
  show max _ (Ideal.ofBits .f32 0x00000000#32) * _ = _
  rw [Ideal.ofBits_zero_f32]

/-- Block against array, rectified: when row p of the block `x` is row P of the array `X`, and the block's bias row and
    column q of its weights are the array's, entry (p, q) of the block of the layer is entry (P, q) of the host's layer of
    the whole array. -/
theorem blockRelu_eq_host (Dk : DotDims ⟨2, ![n, K]⟩ ⟨2, ![K, M]⟩ ⟨2, ![n, M]⟩) (hk : Plain Dk)
    (Dh : DotDims ⟨2, ![N, K]⟩ ⟨2, ![K, M]⟩ ⟨2, ![N, M]⟩) (hh : Plain Dh)
    (x : FVec Ideal ⟨2, ![n, K]⟩ .f32) (b : FVec Ideal ⟨2, ![1, K]⟩ .f32) (w : FVec Ideal ⟨2, ![K, M]⟩ .f32)
    (X : FVec Ideal ⟨2, ![N, K]⟩ .f32) (B : FVec Ideal ⟨2, ![1, K]⟩ .f32) (W : FVec Ideal ⟨2, ![K, M]⟩ .f32)
    (hx : (⟨2, ![n, K]⟩ : Shape).ShapeCasts ⟨2, ![n, K]⟩) (hb : (⟨2, ![1, K]⟩ : Shape).ShapeCasts ⟨2, ![1, K]⟩)
    (hbc : (⟨2, ![1, K]⟩ : Shape).Broadcasts ⟨2, ![n, K]⟩) (ht : FTy.bf16.bits < FTy.f32.bits)
    (hbi : (⟨2, ![1, K]⟩ : Shape).BroadcastsInDim ⟨2, ![N, K]⟩ ![0, 1])
    (hz : (⟨0, ![]⟩ : Shape).BroadcastsInDim ⟨2, ![N, K]⟩ ![])
    (p : Fin n) (P : Fin N) (q : Fin M) (hrow : ∀ k : Fin K, x (ix2 p k) = X (ix2 P k))
    (hbias : ∀ k : Fin K, b (ix2 0 k) = B (ix2 0 k)) (hcol : ∀ k : Fin K, w (ix2 k q) = W (ix2 k q)) :
    matmul Dk none
        (truncf .bf16 (maximumf (addf (shapeCast ⟨2, ![n, K]⟩ x hx) (broadcastTo ⟨2, ![n, K]⟩ (shapeCast ⟨2, ![1, K]⟩ b hb) hbc))
          (broadcast ⟨2, ![n, K]⟩ (Scalar.ofBits (F := Ideal) .f32 0x00000000#32))) ht)
        (truncf .bf16 w ht) (constant ⟨2, ![n, M]⟩ .f32 0x00000000#32) (ix2 p q)
      = Host.dotGeneral (F := Ideal) Dh none
        (maximumf (addf X (broadcastInDim ⟨2, ![N, K]⟩ ![0, 1] hbi B))
          (broadcastInDim ⟨2, ![N, K]⟩ ![] hz (constant (F := Ideal) ⟨0, ![]⟩ .f32 0x00000000#32)))
        W (ix2 P q) := by
  rw [blockRelu_apply Dk hk x b w hx hb hbc ht p q, hostRelu_apply Dh hh X B W hbi hz P q]
  exact Finset.sum_congr rfl fun k _ => by rw [hrow k, hbias k, hcol k]

/-- Block against array, no rectifier and a zero bias row: entry (p, q) of the block of the layer is entry (P, q) of the
    host's plain product of the whole array. -/
theorem blockLinear_eq_host (Dk : DotDims ⟨2, ![n, K]⟩ ⟨2, ![K, M]⟩ ⟨2, ![n, M]⟩) (hk : Plain Dk)
    (Dh : DotDims ⟨2, ![N, K]⟩ ⟨2, ![K, M]⟩ ⟨2, ![N, M]⟩) (hh : Plain Dh)
    (x : FVec Ideal ⟨2, ![n, K]⟩ .f32) (b : FVec Ideal ⟨2, ![1, K]⟩ .f32) (w : FVec Ideal ⟨2, ![K, M]⟩ .f32)
    (X : FVec Ideal ⟨2, ![N, K]⟩ .f32) (W : FVec Ideal ⟨2, ![K, M]⟩ .f32)
    (hb : (⟨2, ![1, K]⟩ : Shape).ShapeCasts ⟨2, ![1, K]⟩)
    (hbc : (⟨2, ![1, K]⟩ : Shape).Broadcasts ⟨2, ![n, K]⟩) (ht : FTy.bf16.bits < FTy.f32.bits)
    (p : Fin n) (P : Fin N) (q : Fin M) (hrow : ∀ k : Fin K, x (ix2 p k) = X (ix2 P k))
    (hzero : ∀ k : Fin K, b (ix2 0 k) = 0) (hcol : ∀ k : Fin K, w (ix2 k q) = W (ix2 k q)) :
    matmul Dk none
        (truncf .bf16 (addf x (broadcastTo ⟨2, ![n, K]⟩ (shapeCast ⟨2, ![1, K]⟩ b hb) hbc)) ht)
        (truncf .bf16 w ht) (constant ⟨2, ![n, M]⟩ .f32 0x00000000#32) (ix2 p q)
      = Host.dotGeneral (F := Ideal) Dh none X W (ix2 P q) := by
  rw [blockLinear_apply Dk hk x b w hb hbc ht p q, hostDot_apply hh none X W P q]
  exact Finset.sum_congr rfl fun k _ => by rw [hrow k, hzero k, add_zero, hcol k]

end Cert.LinearEntry

end
-- ==== Proof.RegionMatmul.lean ====
/-
  Two regions that multiply a tall array by a weight matrix, 1000 rows at a time.

  The grid has 50 points; point t reads rows 1000 t … 1000 t + 999 of the left array [50000, K] and the whole right
  array [K, M], narrows both to bf16 (a change of format, the identity on the extended reals), multiplies them
  into a zero accumulator and writes rows 1000 t … 1000 t + 999 of the product [50000, M].
  Entry (p, q) of block t is the sum over k of x (1000 t + p, k) · w (k, q), which is entry (1000 t + p, q) of the
  host's plain product of the whole arrays; the 50 blocks tile the rows (row r lies in block r / 1000), so after the
  whole grid the product array IS the host's plain product of the arrays the region found.
-/
import proofs.«176306_j88407606821209_1_alg».proof.Proof.Gen.KernelIdeal.Frame
import proofs.«176306_j88407606821209_1_alg».proof.Proof.Gen.ReferenceIdeal
import proofs.«176306_j88407606821209_1_alg».proof.Proof.LibLinearEntry
import proofs.«176306_j88407606821209_1_alg».proof.Proof.LibSameOps
import Idealize.ShloMosaic.Lib.Pipeline.Value
import Idealize.ShloMosaic.Lib.ValueIdx
import Idealize.ShloMosaic.PureOps.Ideal.Laws

set_option maxRecDepth 16384

noncomputable section

namespace Cert.KernelIdeal.RegionMatmul

open Idealize.ShloMosaic Idealize.ShloMosaic.TcCoe Idealize.SL.Sem Cert.KernelIdeal Cert.KernelIdeal.Gen
open Idealize.ShloMosaic.ValueIdx Cert.LibPlainDot

variable (V : (c : Dev nD) → (b : Ref sig .tc) → Buf (Elt Ideal) ((c : Thread nD τ).loc b))

/-- The whole-block rectangle's offsets are zero on both axes. -/
theorem zeroOffsets : (![0, 0] : Fin 2 → Nat) = fun _ => 0 := funext fun a => by fin_cases a <;> rfl

/-! ## Region 0: a block of 1000 rows of `main_arg0` times the whole of `main_arg3` -/

/-- The block's and the array's dimension numbers are plain: axis 1 against axis 0, no batch axis. -/
theorem plainBlock0 : Plain dot_S1000x512_S512x512_S1000x512_1_0_0_1_n_n := ⟨rfl, rfl, rfl, rfl, rfl, rfl⟩
theorem plainArray0 : Plain Cert.ReferenceIdeal.dot_S50000x512_S512x512_S50000x512_1_0_0_1_n_n := ⟨rfl, rfl, rfl, rfl, rfl, rfl⟩

/-- The index maps over the grid: point t reads row block t of the left operand, the whole right operand,
    and writes row block t of the product. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The host's plain product of the whole arrays as the region finds them. -/
abbrev product0 (c : Dev nD) : FVec Ideal S50000x512 .f32 :=
  Host.dotGeneral (F := Ideal) (φ₁ := .f32) (φ₂ := .f32) Cert.ReferenceIdeal.dot_S50000x512_S512x512_S50000x512_1_0_0_1_n_n none
    (V c main_arg0) (V c main_arg3)

/-- Block against array at one entry: when row p of the block `x` is row P of the array `X` and column q of the
    block's right operand is column q of the array's, entry (p, q) of the body's product (both operands narrowed to
    bf16, which is the identity on the extended reals, into a zero accumulator) is entry (P, q) of the host's
    product: both are the sum over k of X (P, k) · W (k, q). -/
theorem blockEntry0 (x : Vec Ideal S1000x512 .f32) (w : Vec Ideal S512x512 .f32)
    (X : FVec Ideal S50000x512 .f32) (W : FVec Ideal S512x512 .f32) (p : Fin 1000) (q : Fin 512) (P : Fin 50000)
    (hrow : ∀ k : Fin 512, x (ix2 p k) = X (ix2 P k)) (hcol : ∀ k : Fin 512, w (ix2 k q) = W (ix2 k q)) :
    k0_pay1 x w (ix2 p q)
      = Host.dotGeneral (F := Ideal) Cert.ReferenceIdeal.dot_S50000x512_S512x512_S50000x512_1_0_0_1_n_n none X W (ix2 P q) := by
  unfold k0_pay1
  refine (matmul_zero_apply plainBlock0 none _ _ p q).trans ?_
  rw [hostDot_apply plainArray0 none X W P q]
  refine Finset.sum_congr rfl fun k _ => ?_
  rw [truncf_apply, truncf_apply, hrow k, hcol k]

/-- What point t writes back is block t of the host's product of the whole arrays. -/
theorem flushed0_eq (c : Dev nD) (t : Fin cfg0.N) :
    (dat0 (F := Ideal) V c).flushed 2 t = ((cfg0.win 2).blk t).view.read (Elt Ideal) (product0 V c) := by
  show (cfg0.win 2).cut (grid0.coords t) ((dat0 V c).after 2 t) = _
  rw [after0_2]
  unfold out0_2
  rw [View.canon_unit_zero zeroOffsets]
  simp only [View.ld_unit_zero (S := S1000x512) zeroOffsets, View.ld_unit_zero (S := S512x512) zeroOffsets]
  obtain ⟨e00, e01, e10, e11, e20, e21⟩ := blockIndex0 t
  have ht : t.val < 50 := t.isLt
  funext j
  obtain ⟨p, q, rfl⟩ : ∃ (p : Fin 1000) (q : Fin 512), j = ValueIdx.ix2 p q := ⟨j 0, j 1, ValueIdx.eq_ix2 j⟩
  have hp : p.val < 1000 := p.isLt
  show k0_pay1 (iblk0 V c 0 t) (iblk0 V c 1 t) (ix2 p q) = product0 V c (((cfg0.win 2).blk t).view.emb (ix2 p q))
  -- entry (p, q) of block t is entry (1000 t + p, q) of the array
  have hemb : ((cfg0.win 2).blk t).view.emb (ix2 p q) = (ix2 (⟨t.val * 1000 + p.val, by omega⟩ : Fin 50000) q : S50000x512.Idx) := by
    funext a; apply Fin.ext
    match a with
    | ⟨0, _⟩ => show win0_2.index t (0 : Fin 2) * 1000 + 1 * p.val = t.val * 1000 + p.val; omega
    | ⟨1, _⟩ => show win0_2.index t (1 : Fin 2) * 512 + 1 * q.val = q.val; omega
  rw [hemb]
  refine blockEntry0 (iblk0 V c 0 t) (iblk0 V c 1 t) (V c main_arg0) (V c main_arg3) p q _ (fun k => ?_) (fun k => ?_)
  · -- row p of the left block is row 1000 t + p of the left array
    unfold iblk0
    rw [View.read_apply]
    show V c main_arg0 (((cfg0.win 0).blk t).view.emb (ix2 p k)) = V c main_arg0 _
    refine congrArg _ ?_
    funext a; apply Fin.ext
    match a with
    | ⟨0, _⟩ => show win0_0.index t (0 : Fin 2) * 1000 + 1 * p.val = t.val * 1000 + p.val; omega
    | ⟨1, _⟩ => show win0_0.index t (1 : Fin 2) * 512 + 1 * k.val = k.val; omega
  · -- the right block is the whole right array
    unfold iblk0
    rw [View.read_apply]
    show V c main_arg3 (((cfg0.win 1).blk t).view.emb (ix2 k q)) = V c main_arg3 _
    refine congrArg _ ?_
    funext a; apply Fin.ext
    match a with
    | ⟨0, _⟩ => show win0_1.index t (0 : Fin 2) * 512 + 1 * k.val = k.val; omega
    | ⟨1, _⟩ => show win0_1.index t (1 : Fin 2) * 512 + 1 * q.val = q.val; omega

/-- An index of the product array is in point t's block iff each coordinate is in the block's range on its axis. -/
theorem mem_block0 (t : Fin cfg0.N) (i : S50000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v8).slice (win0_2.rect t)).set ↔ _
  rw [View.set_slice_whole, Rect.mem_set_unit]
  exact Iff.rfl

/-- Every entry of the product array is written: row r lies in the block of point r / 1000. -/
theorem cover0 (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  let t : Fin cfg0.N := ⟨(i 0).val / 1000, by show (i 0).val / 1000 < 50; omega⟩
  obtain ⟨e00, e01, e10, e11, e20, e21⟩ := blockIndex0 t
  have htv : t.val = (i 0).val / 1000 := rfl
  refine ⟨t, flush0_2 t, ?_⟩
  rw [mem_block0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 512 ≤ (i 1).val ∧ (i 1).val < win0_2.index t (1 : Fin 2) * 512 + 512; omega

/-- The product array after the whole grid has run is the host's plain product of the whole arrays. -/
theorem final0 (c : Dev nD) :
    (dat0 (F := Ideal) V c).arrAt 2 cfg0.N
      = Host.dotGeneral (F := Ideal) (φ₁ := .f32) (φ₂ := .f32) Cert.ReferenceIdeal.dot_S50000x512_S512x512_S50000x512_1_0_0_1_n_n none
          (V c main_arg0 : FVec Ideal S50000x512 .f32) (V c main_arg3 : FVec Ideal S512x512 .f32) :=
  (dat0 (F := Ideal) V c).arrAt_eq_of_cover 2 (product0 V c) (fun t _ => flushed0_eq V c t) cover0

/-! ## Region 3: a block of 1000 rows of `main_v92` times the whole of `main_arg7` -/

/-- The block's and the array's dimension numbers are plain: axis 1 against axis 0, no batch axis. -/
theorem plainBlock3 : Plain dot_S1000x256_S256x512_S1000x512_1_0_0_1_n_n := ⟨rfl, rfl, rfl, rfl, rfl, rfl⟩
theorem plainArray3 : Plain Cert.ReferenceIdeal.dot_S50000x256_S256x512_S50000x512_1_0_0_1_n_n := ⟨rfl, rfl, rfl, rfl, rfl, rfl⟩

/-- The index maps over the grid: point t reads row block t of the left operand, the whole right operand,
    and writes row block t of the product. -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The host's plain product of the whole arrays as the region finds them. -/
abbrev product3 (c : Dev nD) : FVec Ideal S50000x512 .f32 :=
  Host.dotGeneral (F := Ideal) (φ₁ := .f32) (φ₂ := .f32) Cert.ReferenceIdeal.dot_S50000x256_S256x512_S50000x512_1_0_0_1_n_n none
    (V c main_v92) (V c main_arg7)

/-- Block against array at one entry: when row p of the block `x` is row P of the array `X` and column q of the
    block's right operand is column q of the array's, entry (p, q) of the body's product (both operands narrowed to
    bf16, which is the identity on the extended reals, into a zero accumulator) is entry (P, q) of the host's
    product: both are the sum over k of X (P, k) · W (k, q). -/
theorem blockEntry3 (x : Vec Ideal S1000x256 .f32) (w : Vec Ideal S256x512 .f32)
    (X : FVec Ideal S50000x256 .f32) (W : FVec Ideal S256x512 .f32) (p : Fin 1000) (q : Fin 512) (P : Fin 50000)
    (hrow : ∀ k : Fin 256, x (ix2 p k) = X (ix2 P k)) (hcol : ∀ k : Fin 256, w (ix2 k q) = W (ix2 k q)) :
    k3_pay1 x w (ix2 p q)
      = Host.dotGeneral (F := Ideal) Cert.ReferenceIdeal.dot_S50000x256_S256x512_S50000x512_1_0_0_1_n_n none X W (ix2 P q) := by
  unfold k3_pay1
  refine (matmul_zero_apply plainBlock3 none _ _ p q).trans ?_
  rw [hostDot_apply plainArray3 none X W P q]
  refine Finset.sum_congr rfl fun k _ => ?_
  rw [truncf_apply, truncf_apply, shapeCast_self, hrow k, hcol k]

/-- What point t writes back is block t of the host's product of the whole arrays. -/
theorem flushed3_eq (c : Dev nD) (t : Fin cfg3.N) :
    (dat3 (F := Ideal) V c).flushed 2 t = ((cfg3.win 2).blk t).view.read (Elt Ideal) (product3 V c) := by
  show (cfg3.win 2).cut (grid3.coords t) ((dat3 V c).after 2 t) = _
  rw [after3_2]
  unfold out3_2
  rw [View.canon_unit_zero zeroOffsets]
  simp only [View.ld_unit_zero (S := S1000x256) zeroOffsets, View.ld_unit_zero (S := S256x512) zeroOffsets]
  obtain ⟨e00, e01, e10, e11, e20, e21⟩ := blockIndex3 t
  have ht : t.val < 50 := t.isLt
  funext j
  obtain ⟨p, q, rfl⟩ : ∃ (p : Fin 1000) (q : Fin 512), j = ValueIdx.ix2 p q := ⟨j 0, j 1, ValueIdx.eq_ix2 j⟩
  have hp : p.val < 1000 := p.isLt
  show k3_pay1 (iblk3 V c 0 t) (iblk3 V c 1 t) (ix2 p q) = product3 V c (((cfg3.win 2).blk t).view.emb (ix2 p q))
  -- entry (p, q) of block t is entry (1000 t + p, q) of the array
  have hemb : ((cfg3.win 2).blk t).view.emb (ix2 p q) = (ix2 (⟨t.val * 1000 + p.val, by omega⟩ : Fin 50000) q : S50000x512.Idx) := by
    funext a; apply Fin.ext
    match a with
    | ⟨0, _⟩ => show win3_2.index t (0 : Fin 2) * 1000 + 1 * p.val = t.val * 1000 + p.val; omega
    | ⟨1, _⟩ => show win3_2.index t (1 : Fin 2) * 512 + 1 * q.val = q.val; omega
  rw [hemb]
  refine blockEntry3 (iblk3 V c 0 t) (iblk3 V c 1 t) (V c main_v92) (V c main_arg7) p q _ (fun k => ?_) (fun k => ?_)
  · -- row p of the left block is row 1000 t + p of the left array
    unfold iblk3
    rw [View.read_apply]
    show V c main_v92 (((cfg3.win 0).blk t).view.emb (ix2 p k)) = V c main_v92 _
    refine congrArg _ ?_
    funext a; apply Fin.ext
    match a with
    | ⟨0, _⟩ => show win3_0.index t (0 : Fin 2) * 1000 + 1 * p.val = t.val * 1000 + p.val; omega
    | ⟨1, _⟩ => show win3_0.index t (1 : Fin 2) * 256 + 1 * k.val = k.val; omega
  · -- the right block is the whole right array
    unfold iblk3
    rw [View.read_apply]
    show V c main_arg7 (((cfg3.win 1).blk t).view.emb (ix2 k q)) = V c main_arg7 _
    refine congrArg _ ?_
    funext a; apply Fin.ext
    match a with
    | ⟨0, _⟩ => show win3_1.index t (0 : Fin 2) * 256 + 1 * k.val = k.val; omega
    | ⟨1, _⟩ => show win3_1.index t (1 : Fin 2) * 512 + 1 * q.val = q.val; omega

/-- An index of the product array is in point t's block iff each coordinate is in the block's range on its axis. -/
theorem mem_block3 (t : Fin cfg3.N) (i : S50000x512.Idx) :
    i ∈ ((cfg3.win 2).blk t).view.set ↔ ∀ a : Fin 2, win3_2.index t a * S1000x512.size a ≤ (i a).val ∧ (i a).val < win3_2.index t a * S1000x512.size a + S1000x512.size a := by
  show i ∈ ((View.whole main_v93).slice (win3_2.rect t)).set ↔ _
  rw [View.set_slice_whole, Rect.mem_set_unit]
  exact Iff.rfl

/-- Every entry of the product array is written: row r lies in the block of point r / 1000. -/
theorem cover3 (i : S50000x512.Idx) :
    ∃ t : Fin cfg3.N, (cfg3.win 2).flush t = true ∧ i ∈ ((cfg3.win 2).blk t).view.set := by
  have hi0 : (i 0).val < 50000 := (i 0).isLt
  have hi1 : (i 1).val < 512 := (i 1).isLt
  let t : Fin cfg3.N := ⟨(i 0).val / 1000, by show (i 0).val / 1000 < 50; omega⟩
  obtain ⟨e00, e01, e10, e11, e20, e21⟩ := blockIndex3 t
  have htv : t.val = (i 0).val / 1000 := rfl
  refine ⟨t, flush3_2 t, ?_⟩
  rw [mem_block3]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 512 ≤ (i 1).val ∧ (i 1).val < win3_2.index t (1 : Fin 2) * 512 + 512; omega

/-- The product array after the whole grid has run is the host's plain product of the whole arrays. -/
theorem final3 (c : Dev nD) :
    (dat3 (F := Ideal) V c).arrAt 2 cfg3.N
      = Host.dotGeneral (F := Ideal) (φ₁ := .f32) (φ₂ := .f32) Cert.ReferenceIdeal.dot_S50000x256_S256x512_S50000x512_1_0_0_1_n_n none
          (V c main_v92 : FVec Ideal S50000x256 .f32) (V c main_arg7 : FVec Ideal S256x512 .f32) :=
  (dat3 (F := Ideal) V c).arrAt_eq_of_cover 2 (product3 V c) (fun t _ => flushed3_eq V c t) cover3

end Cert.KernelIdeal.RegionMatmul

end
-- ==== Proof.RegionFused.lean ====
/-
  A rectified biased layer times a weight matrix, block by block and as one array.

  The kernel walks a [50000, 512] array in 50 blocks of 1000 rows. At each block it loads the 1000 rows, the whole bias
  row [1, 512] and the whole weight matrix [512, 256]; it spreads the bias row down the rows, adds, takes the maximum
  with a zero splat, narrows both operands to bf16 and multiplies them on the matrix unit into a zero accumulator. The
  host spells it once for the whole array: the plain product of max (x + bias row broadcast down the 50000 rows, 0) with
  the weights. At the extended reals a change of format is the identity, and both products read, at entry (p, q), the
  sum over k of max (x (p, k) + b (0, k)) 0 · w (k, q). Row p of the block at grid point t is row 1000 t + p of the
  array, the bias row and the weights are the same arrays in both; so what each point writes back is its block of the
  host's expression, and since the 50 blocks cover the rows, the array after the whole grid is that expression.
-/
import proofs.«176306_j88407606821209_1_alg».proof.Proof.Gen.KernelIdeal.Frame
import proofs.«176306_j88407606821209_1_alg».proof.Proof.Gen.ReferenceIdeal
import proofs.«176306_j88407606821209_1_alg».proof.Proof.LibLinearEntry
import proofs.«176306_j88407606821209_1_alg».proof.Proof.LibSameOps
import Idealize.ShloMosaic.Lib.Pipeline.Value
import Idealize.ShloMosaic.Lib.ValueIdx
import Idealize.ShloMosaic.PureOps.Ideal.Laws

set_option maxRecDepth 16384

noncomputable section

namespace Cert.KernelIdeal.RegionFused

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The zero offsets of a whole-block access, as a constant function. -/
theorem zeroOffsets : (![0, 0] : Fin 2 → Nat) = fun _ => 0 := funext fun a => by fin_cases a <;> rfl

/-! ## One entry of a block against the whole array -/

/-- The host's layer: the plain product of max (X + bias row broadcast down the rows, zero broadcast) with the weights. -/
abbrev hostFused (X : FVec Ideal S50000x512 .f32) (B : FVec Ideal S1x512 .f32) (W : FVec Ideal S512x256 .f32) :
    FVec Ideal S50000x256 .f32 :=
  Host.dotGeneral (F := Ideal) (φ₁ := .f32) (φ₂ := .f32) Cert.ReferenceIdeal.dot_S50000x512_S512x256_S50000x256_1_0_0_1_n_n none
    (maximumf (addf X
        (broadcastInDim S50000x512 ![0, 1] Cert.ReferenceIdeal.Gen.bcast_S1x512_S50000x512_0_1 B))
      (broadcastInDim S50000x512 ![] bcast_S_S50000x512 (constant (F := Ideal) S_ .f32 0x00000000#32)))
    W

/-- The block's dimension numbers contract axis 1 against axis 0 and have no batch axis. -/
theorem plainBlock : Cert.LibPlainDot.Plain dot_S1000x512_S512x256_S1000x256_1_0_0_1_n_n := ⟨rfl, rfl, rfl, rfl, rfl, rfl⟩

/-- So do the whole array's. -/
theorem plainHost : Cert.LibPlainDot.Plain Cert.ReferenceIdeal.dot_S50000x512_S512x256_S50000x256_1_0_0_1_n_n :=
  ⟨rfl, rfl, rfl, rfl, rfl, rfl⟩

/-! ## Region 1: the rows `main_v48`, the bias row `main_v49`, the weights `main_arg5`, the result `main_v50` -/

/-- Region 1's payload at entry (p, q) is the host's layer at entry (P, q) when row p of the block is row P of the array
    and the block's bias row and weights are the array's. -/
theorem pay1_eq_host (x : Vec Ideal S1000x512 .f32) (b : Vec Ideal S1x512 .f32) (w : Vec Ideal S512x256 .f32)
    (X : FVec Ideal S50000x512 .f32) (B : FVec Ideal S1x512 .f32) (W : FVec Ideal S512x256 .f32)
    (p : Fin 1000) (P : Fin 50000) (q : Fin 256) (hrow : ∀ k : Fin 512, x (ix2 p k) = X (ix2 P k))
    (hbias : ∀ k : Fin 512, b (ix2 0 k) = B (ix2 0 k)) (hcol : ∀ k : Fin 512, w (ix2 k q) = W (ix2 k q)) :
    k1_pay1 x b w (ix2 p q) = hostFused X B W (ix2 P q) := by
  unfold k1_pay1
  exact Cert.LinearEntry.blockRelu_eq_host _ plainBlock _ plainHost x b w X B W _ _ _ _ _ _ p P q hrow hbias hcol

/-- The printed index maps over the 50 grid points: the row windows (input and output) sit at block (t, 0), the bias
    row's and the weights' windows at block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the input rows' block at point t is entry (1000 t + p, k) of the array. -/
theorem rowsBlock1_apply (c : Dev nD) (t : Fin cfg1.N) (p : Fin 1000) (k : Fin 512) (P : Fin 50000)
    (hP : P.val = t.val * 1000 + p.val) :
    (iblk1 V c 0 t : Vec Ideal S1000x512 .f32) (ix2 p k) = (V c main_v48 : FVec Ideal S50000x512 .f32) (ix2 P k) := by
  obtain ⟨e0, e1, -⟩ := blockIndex1 t
  unfold iblk1
  rw [View.read_apply]
  show V c main_v48 _ = V c main_v48 _
  congr 1
  funext a
  apply Fin.ext
  match a with
  | ⟨0, _⟩ => show win1_0.index t (0 : Fin 2) * 1000 + 1 * p.val = P.val; rw [e0, hP]; omega
  | ⟨1, _⟩ => show win1_0.index t (1 : Fin 2) * 512 + 1 * k.val = k.val; rw [e1]; omega

/-- The bias row's block at any point is the bias row: entry (0, k) is entry (0, k). -/
theorem biasBlock1_apply (c : Dev nD) (t : Fin cfg1.N) (k : Fin 512) :
    (iblk1 V c 1 t : Vec Ideal S1x512 .f32) (ix2 0 k) = (V c main_v49 : FVec Ideal S1x512 .f32) (ix2 0 k) := by
  obtain ⟨-, -, e2, e3, -⟩ := blockIndex1 t
  unfold iblk1
  rw [View.read_apply]
  show V c main_v49 _ = V c main_v49 _
  congr 1
  funext a
  apply Fin.ext
  match a with
  | ⟨0, _⟩ => show win1_1.index t (0 : Fin 2) * 1 + 1 * 0 = 0; rw [e2]
  | ⟨1, _⟩ => show win1_1.index t (1 : Fin 2) * 512 + 1 * k.val = k.val; rw [e3]; omega

/-- The weights' block at any point is the weight matrix: entry (k, q) is entry (k, q). -/
theorem weightsBlock1_apply (c : Dev nD) (t : Fin cfg1.N) (k : Fin 512) (q : Fin 256) :
    (iblk1 V c 2 t : Vec Ideal S512x256 .f32) (ix2 k q) = (V c main_arg5 : FVec Ideal S512x256 .f32) (ix2 k q) := by
  obtain ⟨-, -, -, -, e4, e5, -⟩ := blockIndex1 t
  unfold iblk1
  rw [View.read_apply]
  show V c main_arg5 _ = V c main_arg5 _
  congr 1
  funext a
  apply Fin.ext
  match a with
  | ⟨0, _⟩ => show win1_2.index t (0 : Fin 2) * 512 + 1 * k.val = k.val; rw [e4]; omega
  | ⟨1, _⟩ => show win1_2.index t (1 : Fin 2) * 256 + 1 * q.val = q.val; rw [e5]; omega

/-- The output window's block at point t sits at rows 1000 t … 1000 t + 999: block entry (p, q) is array entry
    (1000 t + p, q). -/
theorem outBlock1_emb (t : Fin cfg1.N) (p : Fin 1000) (q : Fin 256) (P : Fin 50000)
    (hP : P.val = t.val * 1000 + p.val) :
    ((cfg1.win 3).blk t).view.emb (ix2 p q) = (ix2 P q : S50000x256.Idx) := by
  obtain ⟨-, -, -, -, -, -, e6, e7⟩ := blockIndex1 t
  funext a
  apply Fin.ext
  match a with
  | ⟨0, _⟩ => show win1_3.index t (0 : Fin 2) * 1000 + 1 * p.val = P.val; rw [e6, hP]; omega
  | ⟨1, _⟩ => show win1_3.index t (1 : Fin 2) * 256 + 1 * q.val = q.val; rw [e7]; omega

/-- What point t writes back is its block of the host's layer of the arrays the region finds. -/
theorem flushed1_eq (c : Dev nD) (t : Fin cfg1.N) :
    (dat1 (F := Ideal) V c).flushed 3 t
      = ((cfg1.win 3).blk t).view.read (Elt Ideal) (hostFused (V c main_v48) (V c main_v49) (V c main_arg5)) := by
  show (cfg1.win 3).cut (grid1.coords t) ((dat1 V c).after 3 t) = _
  rw [after1_3]
  unfold out1_3
  rw [View.canon_unit_zero zeroOffsets]
  simp only [View.ld_unit_zero (S := S1000x512) zeroOffsets, View.ld_unit_zero (S := S1x512) zeroOffsets,
    View.ld_unit_zero (S := S512x256) zeroOffsets]
  funext j
  obtain ⟨p, q, rfl⟩ : ∃ (p : Fin 1000) (q : Fin 256), j = ix2 p q := ⟨j 0, j 1, eq_ix2 j⟩
  have hN : cfg1.N = 50 := rfl
  have ht : t.val < 50 := hN ▸ t.isLt
  have hlt : t.val * 1000 + p.val < 50000 := by have := p.isLt; omega
  show k1_pay1 (iblk1 V c 0 t) (iblk1 V c 1 t) (iblk1 V c 2 t) (ix2 p q)
    = hostFused (V c main_v48) (V c main_v49) (V c main_arg5) (((cfg1.win 3).blk t).view.emb (ix2 p q))
  rw [outBlock1_emb t p q ⟨t.val * 1000 + p.val, hlt⟩ rfl]
  exact pay1_eq_host (iblk1 V c 0 t) (iblk1 V c 1 t) (iblk1 V c 2 t) (V c main_v48) (V c main_v49) (V c main_arg5)
    p ⟨t.val * 1000 + p.val, hlt⟩ q (fun k => rowsBlock1_apply V c t p k _ rfl) (fun k => biasBlock1_apply V c t k)
    (fun k => weightsBlock1_apply V c t k q)

/-- An index of the array is in point t's block iff each coordinate is in the block's range on its axis. -/
theorem mem_outBlock1 (t : Fin cfg1.N) (i : S50000x256.Idx) :
    i ∈ ((cfg1.win 3).blk t).view.set
      ↔ ∀ a : Fin 2, win1_3.index t a * S1000x256.size a ≤ (i a).val
          ∧ (i a).val < win1_3.index t a * S1000x256.size a + S1000x256.size a := by
  show i ∈ ((View.whole main_v50).slice (win1_3.rect t)).set ↔ _
  rw [View.set_slice_whole, Rect.mem_set_unit]
  exact Iff.rfl

/-- Row r lies in the block of point r / 1000: the 50 blocks cover the array. -/
theorem covered1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 50 := rfl
  have ht : (i 0).val / 1000 < cfg1.N := by rw [hN]; omega
  refine ⟨⟨(i 0).val / 1000, ht⟩, flush1_3 _, ?_⟩
  obtain ⟨-, -, -, -, -, -, e6, e7⟩ := blockIndex1 ⟨(i 0).val / 1000, ht⟩
  rw [mem_outBlock1]
  intro a
  match a with
  | ⟨0, _⟩ =>
    show win1_3.index ⟨(i 0).val / 1000, ht⟩ (0 : Fin 2) * 1000 ≤ (i 0).val
      ∧ (i 0).val < win1_3.index ⟨(i 0).val / 1000, ht⟩ (0 : Fin 2) * 1000 + 1000
    rw [e6]; show (i 0).val / 1000 * 1000 ≤ (i 0).val ∧ (i 0).val < (i 0).val / 1000 * 1000 + 1000; omega
  | ⟨1, _⟩ =>
    show win1_3.index ⟨(i 0).val / 1000, ht⟩ (1 : Fin 2) * 256 ≤ (i 1).val
      ∧ (i 1).val < win1_3.index ⟨(i 0).val / 1000, ht⟩ (1 : Fin 2) * 256 + 256
    rw [e7]; omega

/-- THE ARRAY after region 1's whole grid: the host's product of max (rows + bias row broadcast down the rows, 0) with
    the weights. -/
theorem final1 (c : Dev nD) :
    (dat1 (F := Ideal) V c).arrAt 3 cfg1.N
      = Host.dotGeneral (F := Ideal) (φ₁ := .f32) (φ₂ := .f32) Cert.ReferenceIdeal.dot_S50000x512_S512x256_S50000x256_1_0_0_1_n_n none
          (maximumf (addf (V c main_v48 : FVec Ideal S50000x512 .f32)
              (broadcastInDim S50000x512 ![0, 1] Cert.ReferenceIdeal.Gen.bcast_S1x512_S50000x512_0_1 (V c main_v49 : FVec Ideal S1x512 .f32)))
            (broadcastInDim S50000x512 ![] bcast_S_S50000x512 (constant (F := Ideal) S_ .f32 0x00000000#32)))
          (V c main_arg5 : FVec Ideal S512x256 .f32) :=
  (dat1 (F := Ideal) V c).arrAt_eq_of_cover 3 (hostFused (V c main_v48) (V c main_v49) (V c main_arg5))
    (fun t _ => flushed1_eq V c t) (covered1)

/-! ## Region 4: the rows `main_v133`, the bias row `main_v134`, the weights `main_arg9`, the result `main_v135` -/

/-- Region 4's payload at entry (p, q) is the host's layer at entry (P, q) when row p of the block is row P of the array
    and the block's bias row and weights are the array's. -/
theorem pay4_eq_host (x : Vec Ideal S1000x512 .f32) (b : Vec Ideal S1x512 .f32) (w : Vec Ideal S512x256 .f32)
    (X : FVec Ideal S50000x512 .f32) (B : FVec Ideal S1x512 .f32) (W : FVec Ideal S512x256 .f32)
    (p : Fin 1000) (P : Fin 50000) (q : Fin 256) (hrow : ∀ k : Fin 512, x (ix2 p k) = X (ix2 P k))
    (hbias : ∀ k : Fin 512, b (ix2 0 k) = B (ix2 0 k)) (hcol : ∀ k : Fin 512, w (ix2 k q) = W (ix2 k q)) :
    k4_pay1 x b w (ix2 p q) = hostFused X B W (ix2 P q) := by
  unfold k4_pay1
  exact Cert.LinearEntry.blockRelu_eq_host _ plainBlock _ plainHost x b w X B W _ _ _ _ _ _ p P q hrow hbias hcol

/-- The printed index maps over the 50 grid points: the row windows (input and output) sit at block (t, 0), the bias
    row's and the weights' windows at block (0, 0). -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry (p, k) of the input rows' block at point t is entry (1000 t + p, k) of the array. -/
theorem rowsBlock4_apply (c : Dev nD) (t : Fin cfg4.N) (p : Fin 1000) (k : Fin 512) (P : Fin 50000)
    (hP : P.val = t.val * 1000 + p.val) :
    (iblk4 V c 0 t : Vec Ideal S1000x512 .f32) (ix2 p k) = (V c main_v133 : FVec Ideal S50000x512 .f32) (ix2 P k) := by
  obtain ⟨e0, e1, -⟩ := blockIndex4 t
  unfold iblk4
  rw [View.read_apply]
  show V c main_v133 _ = V c main_v133 _
  congr 1
  funext a
  apply Fin.ext
  match a with
  | ⟨0, _⟩ => show win4_0.index t (0 : Fin 2) * 1000 + 1 * p.val = P.val; rw [e0, hP]; omega
  | ⟨1, _⟩ => show win4_0.index t (1 : Fin 2) * 512 + 1 * k.val = k.val; rw [e1]; omega

/-- The bias row's block at any point is the bias row: entry (0, k) is entry (0, k). -/
theorem biasBlock4_apply (c : Dev nD) (t : Fin cfg4.N) (k : Fin 512) :
    (iblk4 V c 1 t : Vec Ideal S1x512 .f32) (ix2 0 k) = (V c main_v134 : FVec Ideal S1x512 .f32) (ix2 0 k) := by
  obtain ⟨-, -, e2, e3, -⟩ := blockIndex4 t
  unfold iblk4
  rw [View.read_apply]
  show V c main_v134 _ = V c main_v134 _
  congr 1
  funext a
  apply Fin.ext
  match a with
  | ⟨0, _⟩ => show win4_1.index t (0 : Fin 2) * 1 + 1 * 0 = 0; rw [e2]
  | ⟨1, _⟩ => show win4_1.index t (1 : Fin 2) * 512 + 1 * k.val = k.val; rw [e3]; omega

/-- The weights' block at any point is the weight matrix: entry (k, q) is entry (k, q). -/
theorem weightsBlock4_apply (c : Dev nD) (t : Fin cfg4.N) (k : Fin 512) (q : Fin 256) :
    (iblk4 V c 2 t : Vec Ideal S512x256 .f32) (ix2 k q) = (V c main_arg9 : FVec Ideal S512x256 .f32) (ix2 k q) := by
  obtain ⟨-, -, -, -, e4, e5, -⟩ := blockIndex4 t
  unfold iblk4
  rw [View.read_apply]
  show V c main_arg9 _ = V c main_arg9 _
  congr 1
  funext a
  apply Fin.ext
  match a with
  | ⟨0, _⟩ => show win4_2.index t (0 : Fin 2) * 512 + 1 * k.val = k.val; rw [e4]; omega
  | ⟨1, _⟩ => show win4_2.index t (1 : Fin 2) * 256 + 1 * q.val = q.val; rw [e5]; omega

/-- The output window's block at point t sits at rows 1000 t … 1000 t + 999: block entry (p, q) is array entry
    (1000 t + p, q). -/
theorem outBlock4_emb (t : Fin cfg4.N) (p : Fin 1000) (q : Fin 256) (P : Fin 50000)
    (hP : P.val = t.val * 1000 + p.val) :
    ((cfg4.win 3).blk t).view.emb (ix2 p q) = (ix2 P q : S50000x256.Idx) := by
  obtain ⟨-, -, -, -, -, -, e6, e7⟩ := blockIndex4 t
  funext a
  apply Fin.ext
  match a with
  | ⟨0, _⟩ => show win4_3.index t (0 : Fin 2) * 1000 + 1 * p.val = P.val; rw [e6, hP]; omega
  | ⟨1, _⟩ => show win4_3.index t (1 : Fin 2) * 256 + 1 * q.val = q.val; rw [e7]; omega

/-- What point t writes back is its block of the host's layer of the arrays the region finds. -/
theorem flushed4_eq (c : Dev nD) (t : Fin cfg4.N) :
    (dat4 (F := Ideal) V c).flushed 3 t
      = ((cfg4.win 3).blk t).view.read (Elt Ideal) (hostFused (V c main_v133) (V c main_v134) (V c main_arg9)) := by
  show (cfg4.win 3).cut (grid4.coords t) ((dat4 V c).after 3 t) = _
  rw [after4_3]
  unfold out4_3
  rw [View.canon_unit_zero zeroOffsets]
  simp only [View.ld_unit_zero (S := S1000x512) zeroOffsets, View.ld_unit_zero (S := S1x512) zeroOffsets,
    View.ld_unit_zero (S := S512x256) zeroOffsets]
  funext j
  obtain ⟨p, q, rfl⟩ : ∃ (p : Fin 1000) (q : Fin 256), j = ix2 p q := ⟨j 0, j 1, eq_ix2 j⟩
  have hN : cfg4.N = 50 := rfl
  have ht : t.val < 50 := hN ▸ t.isLt
  have hlt : t.val * 1000 + p.val < 50000 := by have := p.isLt; omega
  show k4_pay1 (iblk4 V c 0 t) (iblk4 V c 1 t) (iblk4 V c 2 t) (ix2 p q)
    = hostFused (V c main_v133) (V c main_v134) (V c main_arg9) (((cfg4.win 3).blk t).view.emb (ix2 p q))
  rw [outBlock4_emb t p q ⟨t.val * 1000 + p.val, hlt⟩ rfl]
  exact pay4_eq_host (iblk4 V c 0 t) (iblk4 V c 1 t) (iblk4 V c 2 t) (V c main_v133) (V c main_v134) (V c main_arg9)
    p ⟨t.val * 1000 + p.val, hlt⟩ q (fun k => rowsBlock4_apply V c t p k _ rfl) (fun k => biasBlock4_apply V c t k)
    (fun k => weightsBlock4_apply V c t k q)

/-- An index of the array is in point t's block iff each coordinate is in the block's range on its axis. -/
theorem mem_outBlock4 (t : Fin cfg4.N) (i : S50000x256.Idx) :
    i ∈ ((cfg4.win 3).blk t).view.set
      ↔ ∀ a : Fin 2, win4_3.index t a * S1000x256.size a ≤ (i a).val
          ∧ (i a).val < win4_3.index t a * S1000x256.size a + S1000x256.size a := by
  show i ∈ ((View.whole main_v135).slice (win4_3.rect t)).set ↔ _
  rw [View.set_slice_whole, Rect.mem_set_unit]
  exact Iff.rfl

/-- Row r lies in the block of point r / 1000: the 50 blocks cover the array. -/
theorem covered4 (i : S50000x256.Idx) :
    ∃ t : Fin cfg4.N, (cfg4.win 3).flush t = true ∧ i ∈ ((cfg4.win 3).blk t).view.set := by
  have hi0 : (i 0).val < 50000 := (i 0).isLt
  have hi1 : (i 1).val < 256 := (i 1).isLt
  have hN : cfg4.N = 50 := rfl
  have ht : (i 0).val / 1000 < cfg4.N := by rw [hN]; omega
  refine ⟨⟨(i 0).val / 1000, ht⟩, flush4_3 _, ?_⟩
  obtain ⟨-, -, -, -, -, -, e6, e7⟩ := blockIndex4 ⟨(i 0).val / 1000, ht⟩
  rw [mem_outBlock4]
  intro a
  match a with
  | ⟨0, _⟩ =>
    show win4_3.index ⟨(i 0).val / 1000, ht⟩ (0 : Fin 2) * 1000 ≤ (i 0).val
      ∧ (i 0).val < win4_3.index ⟨(i 0).val / 1000, ht⟩ (0 : Fin 2) * 1000 + 1000
    rw [e6]; show (i 0).val / 1000 * 1000 ≤ (i 0).val ∧ (i 0).val < (i 0).val / 1000 * 1000 + 1000; omega
  | ⟨1, _⟩ =>
    show win4_3.index ⟨(i 0).val / 1000, ht⟩ (1 : Fin 2) * 256 ≤ (i 1).val
      ∧ (i 1).val < win4_3.index ⟨(i 0).val / 1000, ht⟩ (1 : Fin 2) * 256 + 256
    rw [e7]; omega

/-- THE ARRAY after region 4's whole grid: the host's product of max (rows + bias row broadcast down the rows, 0) with
    the weights. -/
theorem final4 (c : Dev nD) :
    (dat4 (F := Ideal) V c).arrAt 3 cfg4.N
      = Host.dotGeneral (F := Ideal) (φ₁ := .f32) (φ₂ := .f32) Cert.ReferenceIdeal.dot_S50000x512_S512x256_S50000x256_1_0_0_1_n_n none
          (maximumf (addf (V c main_v133 : FVec Ideal S50000x512 .f32)
              (broadcastInDim S50000x512 ![0, 1] Cert.ReferenceIdeal.Gen.bcast_S1x512_S50000x512_0_1 (V c main_v134 : FVec Ideal S1x512 .f32)))
            (broadcastInDim S50000x512 ![] bcast_S_S50000x512 (constant (F := Ideal) S_ .f32 0x00000000#32)))
          (V c main_arg9 : FVec Ideal S512x256 .f32) :=
  (dat4 (F := Ideal) V c).arrAt_eq_of_cover 3 (hostFused (V c main_v133) (V c main_v134) (V c main_arg9))
    (fun t _ => flushed4_eq V c t) (covered4)

end Cert.KernelIdeal.RegionFused

end
-- ==== Proof.RegionBiasRelu.lean ====
/-
  A bias row added to every row of an array and the sum rectified, block by block and as one array.

  The kernel walks a [50000, 256] array in 50 blocks of 1000 rows. At each block it loads the 1000 rows and the whole
  bias row [1, 256], spreads the bias row down the 1000 rows, adds, and takes the maximum with a zero splat. The host
  spells the same thing once for the whole array: max (x + bias row broadcast down the 50000 rows, 0 broadcast).
  Entry (p, q) of the block at grid point t is entry (1000 t + p, q) of the array, and the bias row read at q is the
  same row in both; so what each point writes back is its block of the host's expression, and since the 50 blocks
  cover the rows, the array after the whole grid is that expression.
-/
import proofs.«176306_j88407606821209_1_alg».proof.Proof.Gen.KernelIdeal.Frame
import proofs.«176306_j88407606821209_1_alg».proof.Proof.Gen.ReferenceIdeal
import proofs.«176306_j88407606821209_1_alg».proof.Proof.LibLinearEntry
import proofs.«176306_j88407606821209_1_alg».proof.Proof.LibSameOps
import Idealize.ShloMosaic.Lib.Pipeline.Value
import Idealize.ShloMosaic.Lib.ValueIdx
import Idealize.ShloMosaic.PureOps.Ideal.Laws

set_option maxRecDepth 16384

noncomputable section

namespace Cert.KernelIdeal.RegionBiasRelu

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The zero offsets of a whole-block access, as a constant function. -/
theorem zeroOffsets : (![0, 0] : Fin 2 → Nat) = fun _ => 0 := funext fun a => by fin_cases a <;> rfl

/-! ## One entry of a block against the whole array -/

/-- The host's rectified biased array: max (X + bias row broadcast down the rows, zero broadcast). -/
abbrev hostBiasRelu (X : FVec Ideal S50000x256 .f32) (B : FVec Ideal S1x256 .f32) : FVec Ideal S50000x256 .f32 :=
  maximumf (addf X
      (broadcastInDim S50000x256 ![0, 1] Cert.ReferenceIdeal.Gen.bcast_S1x256_S50000x256_0_1 B))
    (broadcastInDim S50000x256 ![] bcast_S_S50000x256 (constant (F := Ideal) S_ .f32 0x00000000#32))

/-- The host's expression at entry (P, q): max (X (P, q) + B (0, q)) (the zero word). -/
theorem hostBiasRelu_apply (X : FVec Ideal S50000x256 .f32) (B : FVec Ideal S1x256 .f32) (P : Fin 50000) (q : Fin 256) :
    hostBiasRelu X B (ix2 P q) = max (X (ix2 P q) + B (ix2 0 q)) (Ideal.ofBits .f32 0x00000000#32) := by
  unfold hostBiasRelu
  rw [maximumf_apply, addf_apply, Cert.LinearEntry.biasRowHost_apply B _ P q,
    broadcastInDim_apply ![] bcast_S_S50000x256 _ (ix2 P q) ix0 (fun a => a.elim0), constant_apply]

/-- The block's expression at entry (p, q): max (x (p, q) + b (0, q)) (the zero word). -/
theorem blockBiasRelu_apply (x : FVec Ideal S1000x256 .f32) (b : FVec Ideal S1x256 .f32)
    (hx : S1000x256.ShapeCasts S1000x256) (hb : S1x256.ShapeCasts S1x256) (hbc : S1x256.Broadcasts S1000x256)
    (p : Fin 1000) (q : Fin 256) :
    maximumf (addf (shapeCast S1000x256 x hx) (broadcastTo S1000x256 (shapeCast S1x256 b hb) hbc))
        (broadcast S1000x256 (Scalar.ofBits (F := Ideal) .f32 0x00000000#32)) (ix2 p q)
      = max (x (ix2 p q) + b (ix2 0 q)) (Ideal.ofBits .f32 0x00000000#32) := by
  rw [maximumf_apply, addf_apply, broadcast_apply, shapeCast_self, shapeCast_self, Cert.LinearEntry.biasRow_apply b hbc p q]
  rfl

/-! ## Region 2: the rows `main_v90`, the bias row `main_v91`, the result `main_v92` -/

/-- The printed index maps over the 50 grid points: the row windows (input and output) sit at block (t, 0), the bias
    row's window at block (0, 0). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of the input rows' block at point t is entry (1000 t + p, q) of the array. -/
theorem rowsBlock2_apply (c : Dev nD) (t : Fin cfg2.N) (p : Fin 1000) (q : Fin 256) (P : Fin 50000)
    (hP : P.val = t.val * 1000 + p.val) :
    (iblk2 V c 0 t : Vec Ideal S1000x256 .f32) (ix2 p q) = (V c main_v90 : FVec Ideal S50000x256 .f32) (ix2 P q) := by
  obtain ⟨e0, e1, -⟩ := blockIndex2 t
  unfold iblk2
  rw [View.read_apply]
  show V c main_v90 _ = V c main_v90 _
  congr 1
  funext a
  apply Fin.ext
  match a with
  | ⟨0, _⟩ => show win2_0.index t (0 : Fin 2) * 1000 + 1 * p.val = P.val; rw [e0, hP]; omega
  | ⟨1, _⟩ => show win2_0.index t (1 : Fin 2) * 256 + 1 * q.val = q.val; rw [e1]; omega

/-- The bias row's block at any point is the bias row: entry (0, q) is entry (0, q). -/
theorem biasBlock2_apply (c : Dev nD) (t : Fin cfg2.N) (q : Fin 256) :
    (iblk2 V c 1 t : Vec Ideal S1x256 .f32) (ix2 0 q) = (V c main_v91 : FVec Ideal S1x256 .f32) (ix2 0 q) := by
  obtain ⟨-, -, e2, e3, -⟩ := blockIndex2 t
  unfold iblk2
  rw [View.read_apply]
  show V c main_v91 _ = V c main_v91 _
  congr 1
  funext a
  apply Fin.ext
  match a with
  | ⟨0, _⟩ => show win2_1.index t (0 : Fin 2) * 1 + 1 * 0 = 0; rw [e2]
  | ⟨1, _⟩ => show win2_1.index t (1 : Fin 2) * 256 + 1 * q.val = q.val; rw [e3]; omega

/-- The output window's block at point t sits at rows 1000 t … 1000 t + 999: block entry (p, q) is array entry
    (1000 t + p, q). -/
theorem outBlock2_emb (t : Fin cfg2.N) (p : Fin 1000) (q : Fin 256) (P : Fin 50000)
    (hP : P.val = t.val * 1000 + p.val) :
    ((cfg2.win 2).blk t).view.emb (ix2 p q) = (ix2 P q : S50000x256.Idx) := by
  obtain ⟨-, -, -, -, e4, e5⟩ := blockIndex2 t
  funext a
  apply Fin.ext
  match a with
  | ⟨0, _⟩ => show win2_2.index t (0 : Fin 2) * 1000 + 1 * p.val = P.val; rw [e4, hP]; omega
  | ⟨1, _⟩ => show win2_2.index t (1 : Fin 2) * 256 + 1 * q.val = q.val; rw [e5]; omega

/-- The payload of region 2's one store is the block expression. -/
theorem pay2_apply (x : Vec Ideal S1000x256 .f32) (b : Vec Ideal S1x256 .f32) (p : Fin 1000) (q : Fin 256) :
    k2_pay1 x b (ix2 p q) = max (x (ix2 p q) + b (ix2 0 q)) (Ideal.ofBits .f32 0x00000000#32) := by
  unfold k2_pay1
  exact blockBiasRelu_apply x b _ _ _ p q

/-- What point t writes back is its block of the host's expression of the arrays the region finds. -/
theorem flushed2_eq (c : Dev nD) (t : Fin cfg2.N) :
    (dat2 (F := Ideal) V c).flushed 2 t
      = ((cfg2.win 2).blk t).view.read (Elt Ideal) (hostBiasRelu (V c main_v90) (V c main_v91)) := by
  show (cfg2.win 2).cut (grid2.coords t) ((dat2 V c).after 2 t) = _
  rw [after2_2]
  unfold out2_2
  rw [View.canon_unit_zero zeroOffsets]
  simp only [View.ld_unit_zero (S := S1000x256) zeroOffsets, View.ld_unit_zero (S := S1x256) zeroOffsets]
  funext j
  obtain ⟨p, q, rfl⟩ : ∃ (p : Fin 1000) (q : Fin 256), j = ix2 p q := ⟨j 0, j 1, eq_ix2 j⟩
  have hN : cfg2.N = 50 := rfl
  have ht : t.val < 50 := hN ▸ t.isLt
  have hlt : t.val * 1000 + p.val < 50000 := by have := p.isLt; omega
  show k2_pay1 (iblk2 V c 0 t) (iblk2 V c 1 t) (ix2 p q)
    = hostBiasRelu (V c main_v90) (V c main_v91) (((cfg2.win 2).blk t).view.emb (ix2 p q))
  rw [outBlock2_emb t p q ⟨t.val * 1000 + p.val, hlt⟩ rfl, hostBiasRelu_apply, pay2_apply,
    rowsBlock2_apply V c t p q ⟨t.val * 1000 + p.val, hlt⟩ rfl, biasBlock2_apply V c t q]

/-- An index of the array is in point t's block iff each coordinate is in the block's range on its axis. -/
theorem mem_outBlock2 (t : Fin cfg2.N) (i : S50000x256.Idx) :
    i ∈ ((cfg2.win 2).blk t).view.set
      ↔ ∀ a : Fin 2, win2_2.index t a * S1000x256.size a ≤ (i a).val
          ∧ (i a).val < win2_2.index t a * S1000x256.size a + S1000x256.size a := by
  show i ∈ ((View.whole main_v92).slice (win2_2.rect t)).set ↔ _
  rw [View.set_slice_whole, Rect.mem_set_unit]
  exact Iff.rfl

/-- Row r lies in the block of point r / 1000: the 50 blocks cover the array. -/
theorem covered2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 50 := rfl
  have ht : (i 0).val / 1000 < cfg2.N := by rw [hN]; omega
  refine ⟨⟨(i 0).val / 1000, ht⟩, flush2_2 _, ?_⟩
  obtain ⟨-, -, -, -, e4, e5⟩ := blockIndex2 ⟨(i 0).val / 1000, ht⟩
  rw [mem_outBlock2]
  intro a
  match a with
  | ⟨0, _⟩ =>
    show win2_2.index ⟨(i 0).val / 1000, ht⟩ (0 : Fin 2) * 1000 ≤ (i 0).val
      ∧ (i 0).val < win2_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win2_2.index ⟨(i 0).val / 1000, ht⟩ (1 : Fin 2) * 256 ≤ (i 1).val
      ∧ (i 1).val < win2_2.index ⟨(i 0).val / 1000, ht⟩ (1 : Fin 2) * 256 + 256
    rw [e5]; omega

/-- THE ARRAY after region 2's whole grid: the host's max (rows + bias row broadcast down the rows, 0). -/
theorem final2 (c : Dev nD) :
    (dat2 (F := Ideal) V c).arrAt 2 cfg2.N
      = maximumf (addf (V c main_v90 : FVec Ideal S50000x256 .f32)
            (broadcastInDim S50000x256 ![0, 1] Cert.ReferenceIdeal.Gen.bcast_S1x256_S50000x256_0_1 (V c main_v91 : FVec Ideal S1x256 .f32)))
          (broadcastInDim S50000x256 ![] bcast_S_S50000x256 (constant (F := Ideal) S_ .f32 0x00000000#32)) :=
  (dat2 (F := Ideal) V c).arrAt_eq_of_cover 2 (hostBiasRelu (V c main_v90) (V c main_v91))
    (fun t _ => flushed2_eq V c t) (covered2)

/-! ## Region 5: the rows `main_v175`, the bias row `main_v176`, the result `main_v177` -/

/-- The printed index maps over the 50 grid points: the row windows (input and output) sit at block (t, 0), the bias
    row's window at block (0, 0). -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (p, q) of the input rows' block at point t is entry (1000 t + p, q) of the array. -/
theorem rowsBlock5_apply (c : Dev nD) (t : Fin cfg5.N) (p : Fin 1000) (q : Fin 256) (P : Fin 50000)
    (hP : P.val = t.val * 1000 + p.val) :
    (iblk5 V c 0 t : Vec Ideal S1000x256 .f32) (ix2 p q) = (V c main_v175 : FVec Ideal S50000x256 .f32) (ix2 P q) := by
  obtain ⟨e0, e1, -⟩ := blockIndex5 t
  unfold iblk5
  rw [View.read_apply]
  show V c main_v175 _ = V c main_v175 _
  congr 1
  funext a
  apply Fin.ext
  match a with
  | ⟨0, _⟩ => show win5_0.index t (0 : Fin 2) * 1000 + 1 * p.val = P.val; rw [e0, hP]; omega
  | ⟨1, _⟩ => show win5_0.index t (1 : Fin 2) * 256 + 1 * q.val = q.val; rw [e1]; omega

/-- The bias row's block at any point is the bias row: entry (0, q) is entry (0, q). -/
theorem biasBlock5_apply (c : Dev nD) (t : Fin cfg5.N) (q : Fin 256) :
    (iblk5 V c 1 t : Vec Ideal S1x256 .f32) (ix2 0 q) = (V c main_v176 : FVec Ideal S1x256 .f32) (ix2 0 q) := by
  obtain ⟨-, -, e2, e3, -⟩ := blockIndex5 t
  unfold iblk5
  rw [View.read_apply]
  show V c main_v176 _ = V c main_v176 _
  congr 1
  funext a
  apply Fin.ext
  match a with
  | ⟨0, _⟩ => show win5_1.index t (0 : Fin 2) * 1 + 1 * 0 = 0; rw [e2]
  | ⟨1, _⟩ => show win5_1.index t (1 : Fin 2) * 256 + 1 * q.val = q.val; rw [e3]; omega

/-- The output window's block at point t sits at rows 1000 t … 1000 t + 999: block entry (p, q) is array entry
    (1000 t + p, q). -/
theorem outBlock5_emb (t : Fin cfg5.N) (p : Fin 1000) (q : Fin 256) (P : Fin 50000)
    (hP : P.val = t.val * 1000 + p.val) :
    ((cfg5.win 2).blk t).view.emb (ix2 p q) = (ix2 P q : S50000x256.Idx) := by
  obtain ⟨-, -, -, -, e4, e5⟩ := blockIndex5 t
  funext a
  apply Fin.ext
  match a with
  | ⟨0, _⟩ => show win5_2.index t (0 : Fin 2) * 1000 + 1 * p.val = P.val; rw [e4, hP]; omega
  | ⟨1, _⟩ => show win5_2.index t (1 : Fin 2) * 256 + 1 * q.val = q.val; rw [e5]; omega

/-- The payload of region 5's one store is the block expression. -/
theorem pay5_apply (x : Vec Ideal S1000x256 .f32) (b : Vec Ideal S1x256 .f32) (p : Fin 1000) (q : Fin 256) :
    k5_pay1 x b (ix2 p q) = max (x (ix2 p q) + b (ix2 0 q)) (Ideal.ofBits .f32 0x00000000#32) := by
  unfold k5_pay1
  exact blockBiasRelu_apply x b _ _ _ p q

/-- What point t writes back is its block of the host's expression of the arrays the region finds. -/
theorem flushed5_eq (c : Dev nD) (t : Fin cfg5.N) :
    (dat5 (F := Ideal) V c).flushed 2 t
      = ((cfg5.win 2).blk t).view.read (Elt Ideal) (hostBiasRelu (V c main_v175) (V c main_v176)) := by
  show (cfg5.win 2).cut (grid5.coords t) ((dat5 V c).after 2 t) = _
  rw [after5_2]
  unfold out5_2
  rw [View.canon_unit_zero zeroOffsets]
  simp only [View.ld_unit_zero (S := S1000x256) zeroOffsets, View.ld_unit_zero (S := S1x256) zeroOffsets]
  funext j
  obtain ⟨p, q, rfl⟩ : ∃ (p : Fin 1000) (q : Fin 256), j = ix2 p q := ⟨j 0, j 1, eq_ix2 j⟩
  have hN : cfg5.N = 50 := rfl
  have ht : t.val < 50 := hN ▸ t.isLt
  have hlt : t.val * 1000 + p.val < 50000 := by have := p.isLt; omega
  show k5_pay1 (iblk5 V c 0 t) (iblk5 V c 1 t) (ix2 p q)
    = hostBiasRelu (V c main_v175) (V c main_v176) (((cfg5.win 2).blk t).view.emb (ix2 p q))
  rw [outBlock5_emb t p q ⟨t.val * 1000 + p.val, hlt⟩ rfl, hostBiasRelu_apply, pay5_apply,
    rowsBlock5_apply V c t p q ⟨t.val * 1000 + p.val, hlt⟩ rfl, biasBlock5_apply V c t q]

/-- An index of the array is in point t's block iff each coordinate is in the block's range on its axis. -/
theorem mem_outBlock5 (t : Fin cfg5.N) (i : S50000x256.Idx) :
    i ∈ ((cfg5.win 2).blk t).view.set
      ↔ ∀ a : Fin 2, win5_2.index t a * S1000x256.size a ≤ (i a).val
          ∧ (i a).val < win5_2.index t a * S1000x256.size a + S1000x256.size a := by
  show i ∈ ((View.whole main_v177).slice (win5_2.rect t)).set ↔ _
  rw [View.set_slice_whole, Rect.mem_set_unit]
  exact Iff.rfl

/-- Row r lies in the block of point r / 1000: the 50 blocks cover the array. -/
theorem covered5 (i : S50000x256.Idx) :
    ∃ t : Fin cfg5.N, (cfg5.win 2).flush t = true ∧ i ∈ ((cfg5.win 2).blk t).view.set := by
  have hi0 : (i 0).val < 50000 := (i 0).isLt
  have hi1 : (i 1).val < 256 := (i 1).isLt
  have hN : cfg5.N = 50 := rfl
  have ht : (i 0).val / 1000 < cfg5.N := by rw [hN]; omega
  refine ⟨⟨(i 0).val / 1000, ht⟩, flush5_2 _, ?_⟩
  obtain ⟨-, -, -, -, e4, e5⟩ := blockIndex5 ⟨(i 0).val / 1000, ht⟩
  rw [mem_outBlock5]
  intro a
  match a with
  | ⟨0, _⟩ =>
    show win5_2.index ⟨(i 0).val / 1000, ht⟩ (0 : Fin 2) * 1000 ≤ (i 0).val
      ∧ (i 0).val < win5_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win5_2.index ⟨(i 0).val / 1000, ht⟩ (1 : Fin 2) * 256 ≤ (i 1).val
      ∧ (i 1).val < win5_2.index ⟨(i 0).val / 1000, ht⟩ (1 : Fin 2) * 256 + 256
    rw [e5]; omega

/-- THE ARRAY after region 5's whole grid: the host's max (rows + bias row broadcast down the rows, 0). -/
theorem final5 (c : Dev nD) :
    (dat5 (F := Ideal) V c).arrAt 2 cfg5.N
      = maximumf (addf (V c main_v175 : FVec Ideal S50000x256 .f32)
            (broadcastInDim S50000x256 ![0, 1] Cert.ReferenceIdeal.Gen.bcast_S1x256_S50000x256_0_1 (V c main_v176 : FVec Ideal S1x256 .f32)))
          (broadcastInDim S50000x256 ![] bcast_S_S50000x256 (constant (F := Ideal) S_ .f32 0x00000000#32)) :=
  (dat5 (F := Ideal) V c).arrAt_eq_of_cover 2 (hostBiasRelu (V c main_v175) (V c main_v176))
    (fun t _ => flushed5_eq V c t) (covered5)

end Cert.KernelIdeal.RegionBiasRelu

end
-- ==== Proof.lean ====
/-
  Two chained graph encoders on the matrix unit against their plain reference: the certificate's claims.

  The kernel computes each encoder's four dense steps in grid regions — a matrix product of 1000-row blocks with the
  whole weight matrix, a bias and positive part fused into the next product, a last bias and positive part — and leaves
  the neighbourhood sums to host operations; the reference does everything with host operations. At the extended
  reals the narrowing of a product's operands to bf16 is the identity and a product into a zero accumulator is the
  plain sum over the contracted coordinate, so each region's output array is the host's form of the same layer of the
  region's input arrays, and the neighbourhood sums are literally the same operations on both sides. Both programs
  therefore end with the same two functions of the argument arrays: no algebraic law beyond regrouping a sum by blocks
  of rows is used, and the finiteness of the inputs is never opened.

  The three frames are the generated ones (the reference's is its run with the results dropped); the idealization
  rewrote no operation, so the preservation claim is trivial; the equivalence puts the kernel's run with its results
  named beside the reference's run and identifies both results with the two encoders.
-/
import proofs.«176306_j88407606821209_1_alg».proof.Defs
import proofs.«176306_j88407606821209_1_alg».proof.Proof.Gen.Kernel
import proofs.«176306_j88407606821209_1_alg».proof.Proof.Gen.Kernel.Skeleton
import proofs.«176306_j88407606821209_1_alg».proof.Proof.Gen.Kernel.Launch
import proofs.«176306_j88407606821209_1_alg».proof.Proof.Gen.Kernel.Points
import proofs.«176306_j88407606821209_1_alg».proof.Proof.Gen.Kernel.Frame
import proofs.«176306_j88407606821209_1_alg».proof.Proof.Gen.KernelIdeal
import proofs.«176306_j88407606821209_1_alg».proof.Proof.Gen.KernelIdeal.Skeleton
import proofs.«176306_j88407606821209_1_alg».proof.Proof.Gen.KernelIdeal.Launch
import proofs.«176306_j88407606821209_1_alg».proof.Proof.Gen.KernelIdeal.Points
import proofs.«176306_j88407606821209_1_alg».proof.Proof.Gen.KernelIdeal.Frame
import proofs.«176306_j88407606821209_1_alg».proof.Proof.Gen.ReferenceIdeal
import proofs.«176306_j88407606821209_1_alg».proof.Proof.Gen.Pre_finite_inputs
import proofs.«176306_j88407606821209_1_alg».proof.Proof.Gen.ReferenceIdeal.Run
import proofs.«176306_j88407606821209_1_alg».proof.Proof.Gen.ReferenceIdeal.Read
import proofs.«176306_j88407606821209_1_alg».proof.Proof.NamedRun
import proofs.«176306_j88407606821209_1_alg».proof.Proof.Chain
import proofs.«176306_j88407606821209_1_alg».proof.Proof.RefSpec
import proofs.«176306_j88407606821209_1_alg».proof.Proof.RegionMatmul
import proofs.«176306_j88407606821209_1_alg».proof.Proof.RegionFused
import proofs.«176306_j88407606821209_1_alg».proof.Proof.RegionBiasRelu
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization's ledger is empty. -/
theorem preserves : Cert.preserves_Kernel_KernelIdeal := trivial

/-- Both programs end with the first encoder of the arguments in the first result and the second encoder of that and the
    remaining arguments in the second: the kernel by its segments read back with each region's closed form, the
    reference by its run's composed terms grouped by layer. -/
theorem algebraic : Cert.algebraic_KernelIdeal_ReferenceIdeal := by
  intro m ρ m' ρ' _ hagree
  refine ⟨fun c => Cert.KernelIdeal.Chain.Z m c, fun c => Cert.KernelIdeal.Chain.ZG m c, ?_, ?_⟩
  · refine (θ_run Cert.KernelIdeal.defs _ _).mono (fun r h c => ?_) (Cert.KernelIdeal.Named.run_named (F := Ideal) m ρ)
    obtain ⟨h0, h1, hargs⟩ := h c
    exact ⟨h0.trans (Cert.KernelIdeal.Chain.v92_end m ρ c Cert.KernelIdeal.RegionMatmul.final0
        Cert.KernelIdeal.RegionFused.final1 Cert.KernelIdeal.RegionBiasRelu.final2),
      h1.trans (Cert.KernelIdeal.Chain.v177_eq m ρ c Cert.KernelIdeal.RegionMatmul.final0
        Cert.KernelIdeal.RegionFused.final1 Cert.KernelIdeal.RegionBiasRelu.final2 Cert.KernelIdeal.RegionMatmul.final3
        Cert.KernelIdeal.RegionFused.final4 Cert.KernelIdeal.RegionBiasRelu.final5), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8, e9, e10⟩ := hagree c
    have hz : Cert.ReferenceIdeal.Value.res_main_v93 m' c = Cert.KernelIdeal.Chain.Z m c := by
      rw [Cert.ReferenceIdeal.Layers.res0_eq, Cert.ReferenceIdeal.Layers.encoder1_eq, e0, e1, e3, e4, e5, e6]
      exact (Cert.KernelIdeal.Chain.Z_eq m c).symm
    have hzg : Cert.ReferenceIdeal.Value.res_main_v187 m' c = Cert.KernelIdeal.Chain.ZG m c := by
      rw [Cert.ReferenceIdeal.Layers.res1_eq, Cert.ReferenceIdeal.Layers.encoder2_eq, Cert.ReferenceIdeal.Layers.encoder1_eq,
        e0, e1, e2, e3, e4, e5, e6, e7, e8, e9, e10]
      exact (Cert.KernelIdeal.Chain.ZG_eq m c).symm
    exact ⟨h0.trans hz, h1.trans hzg, hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
